-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4194304 : Shape := ⟨2, ![2, 4194304]⟩
abbrev S10x2 : Shape := ⟨2, ![10, 2]⟩
abbrev S10 : Shape := ⟨1, ![10]⟩
abbrev S10x10 : Shape := ⟨2, ![10, 10]⟩
abbrev S1x10 : Shape := ⟨2, ![1, 10]⟩
abbrev S1 : Shape := ⟨1, ![1]⟩
abbrev S_ : Shape := ⟨0, ![]⟩

class Facts : Prop where
  bcast_S_S2x4194304 : S_.BroadcastsInDim S2x4194304 (![] : Fin 0 → Fin S2x4194304.rank)
  reducesTo_S2x4194304_S_d0_1 : S2x4194304.ReducesTo [0, 1] S_
  h_S_ : 0 < S_.numel
  bcast_S_S10x2 : S_.BroadcastsInDim S10x2 (![] : Fin 0 → Fin S10x2.rank)
  reducesTo_S10x2_S_d0_1 : S10x2.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S1x10 : S_.BroadcastsInDim S1x10 (![] : Fin 0 → Fin S1x10.rank)
  reducesTo_S1x10_S_d0_1 : S1x10.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S10 .f32) (main_arg5 : FVec F S1x10 .f32) (main_arg6 : FVec F S1 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S1x10 .f32 := Host.absf main_arg5
  let main_cst_8 : FVec F S_ .f32 := constant S_ .f32 0x7F800000#32
  let main_v25 : FVec F S1x10 .f32 := broadcastInDim S1x10 ![] bcast_S_S1x10 main_cst_8
  let main_v26 : IVec S1x10 1 := cmpf .olt main_v24 main_v25
  let main_c_9 : IVec S_ 1 := constantI S_ 1 1#1
  let main_v27 : IVec S_ 1 := (fun x v => Host.reduce IntOp.andi x v reducesTo_S1x10_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S2x4194304 .f32) (main_arg1 : FVec F S10x2 .f32) (main_arg2 : FVec F S10 .f32) (main_arg3 : FVec F S10x10 .f32) (main_arg4 : FVec F S10 .f32) (main_arg5 : FVec F S1x10 .f32) (main_arg6 : FVec F S1 .f32) : IVec S_ 1 :=
  let main_v0 : FVec F S2x4194304 .f32 := Host.absf main_arg0
  let main_cst : FVec F S_ .f32 := constant S_ .f32 0x7F800000#32
  let main_v1 : FVec F S2x4194304 .f32 := broadcastInDim S2x4194304 ![] bcast_S_S2x4194304 main_cst
  let main_v2 : IVec S2x4194304 1 := cmpf .olt main_v0 main_v1
  let main_c : IVec S_ 1 := constantI S_ 1 1#1
  let main_v3 : IVec S_ 1 := (fun x v => Host.reduce IntOp.andi x v reducesTo_S2x4194304_S_d0_1 h_S_) main_v2 main_c
  let main_v4 : FVec F S10x2 .f32 := Host.absf main_arg1
  let main_cst_0 : FVec F S_ .f32 := constant S_ .f32 0x7F800000#32
  let main_v5 : FVec F S10x2 .f32 := broadcastInDim S10x2 ![] bcast_S_S10x2 main_cst_0
  let main_v6 : IVec S10x2 1 := cmpf .olt main_v4 main_v5
  let main_c_1 : IVec S_ 1 := constantI S_ 1 1#1
  let main_v7 : IVec S_ 1 := (fun x v => Host.reduce IntOp.andi x v reducesTo_S10x2_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x10 .f32 := Host.absf main_arg3
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg4 main_arg5 main_arg6 main_v13 main_v16
-- ==== Kernel.lean ====
abbrev S2x4194304 : Shape := ⟨2, ![2, 4194304]⟩
abbrev S10x2 : Shape := ⟨2, ![10, 2]⟩
abbrev S10 : Shape := ⟨1, ![10]⟩
abbrev S10x10 : Shape := ⟨2, ![10, 10]⟩
abbrev S1x10 : Shape := ⟨2, ![1, 10]⟩
abbrev S1 : Shape := ⟨1, ![1]⟩
abbrev S_ : Shape := ⟨0, ![]⟩
abbrev S16x2 : Shape := ⟨2, ![16, 2]⟩
abbrev S11 : Shape := ⟨1, ![11]⟩
abbrev S16 : Shape := ⟨1, ![16]⟩
abbrev S16x1 : Shape := ⟨2, ![16, 1]⟩
abbrev S16x13 : Shape := ⟨2, ![16, 13]⟩
abbrev S16x16 : Shape := ⟨2, ![16, 16]⟩
abbrev S1x16 : Shape := ⟨2, ![1, 16]⟩
abbrev S2 : Shape := ⟨1, ![2]⟩
abbrev S10x1 : Shape := ⟨2, ![10, 1]⟩
abbrev S10x11 : Shape := ⟨2, ![10, 11]⟩
abbrev S10x16 : Shape := ⟨2, ![10, 16]⟩
abbrev S5x16 : Shape := ⟨2, ![5, 16]⟩
abbrev S1x1 : Shape := ⟨2, ![1, 1]⟩
abbrev S1x11 : Shape := ⟨2, ![1, 11]⟩
abbrev S8x16 : Shape := ⟨2, ![8, 16]⟩
abbrev S40x16 : Shape := ⟨2, ![40, 16]⟩
abbrev S32768x128 : Shape := ⟨2, ![32768, 128]⟩
abbrev S2x524288 : Shape := ⟨2, ![2, 524288]⟩
abbrev S4096x128 : Shape := ⟨2, ![4096, 128]⟩
abbrev S16x524288 : Shape := ⟨2, ![16, 524288]⟩
abbrev S8x524288 : Shape := ⟨2, ![8, 524288]⟩
abbrev S1x524288 : Shape := ⟨2, ![1, 524288]⟩
abbrev S4194304x1 : Shape := ⟨2, ![4194304, 1]⟩

abbrev nBuf : Space → Nat
  | .hbm => 45
  | .vmem => 5
  | .smem => 0
  | _ => 0

abbrev bufTy : (tb : Table) → Fin (tcTables nBuf tb) → BufTy
  | .hbm, ⟨0, _⟩ => ⟨S2x4194304, .f32⟩
  | .hbm, ⟨1, _⟩ => ⟨S10x2, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S1x10, .f32⟩
  | .hbm, ⟨6, _⟩ => ⟨S1, .f32⟩
  | .hbm, ⟨7, _⟩ => ⟨S_, .i32⟩
  | .hbm, ⟨8, _⟩ => ⟨S_, .f32⟩
  | .hbm, ⟨9, _⟩ => ⟨S16x2, .f32⟩
  | .hbm, ⟨10, _⟩ => ⟨S_, .f32⟩
  | .hbm, ⟨11, _⟩ => ⟨S1, .f32⟩
  | .hbm, ⟨12, _⟩ => ⟨S11, .f32⟩
  | .hbm, ⟨13, _⟩ => ⟨S_, .i32⟩
  | .hbm, ⟨14, _⟩ => ⟨S_, .f32⟩
  | .hbm, ⟨15, _⟩ => ⟨S16, .f32⟩
  | .hbm, ⟨16, _⟩ => ⟨S16x1, .f32⟩
  | .hbm, ⟨17, _⟩ => ⟨S_, .f32⟩
  | .hbm, ⟨18, _⟩ => ⟨S16x13, .f32⟩
  | .hbm, ⟨19, _⟩ => ⟨S16x16, .f32⟩
  | .hbm, ⟨20, _⟩ => ⟨S_, .f32⟩
  | .hbm, ⟨21, _⟩ => ⟨S1x16, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S_, .f32⟩
  | .hbm, ⟨28, _⟩ => ⟨S1x16, .f32⟩
  | .hbm, ⟨29, _⟩ => ⟨S10x1, .f32⟩
  | .hbm, ⟨30, _⟩ => ⟨S10x11, .f32⟩
  | .hbm, ⟨31, _⟩ => ⟨S_, .i32⟩
  | .hbm, ⟨32, _⟩ => ⟨S_, .f32⟩
  | .hbm, ⟨33, _⟩ => ⟨S10x16, .f32⟩
  | .hbm, ⟨34, _⟩ => ⟨S_, .f32⟩
  | .hbm, ⟨35, _⟩ => ⟨S5x16, .f32⟩
  | .hbm, ⟨36, _⟩ => ⟨S16x16, .f32⟩
  | .hbm, ⟨37, _⟩ => ⟨S1x1, .f32⟩
  | .hbm, ⟨38, _⟩ => ⟨S1x11, .f32⟩
  | .hbm, ⟨39, _⟩ => ⟨S_, .i32⟩
  | .hbm, ⟨40, _⟩ => ⟨S_, .f32⟩
  | .hbm, ⟨41, _⟩ => ⟨S8x16, .f32⟩
  | .hbm, ⟨42, _⟩ => ⟨S40x16, .f32⟩
  | .hbm, ⟨43, _⟩ => ⟨S32768x128, .f32⟩
  | .hbm, ⟨44, _⟩ => ⟨S4194304x1, .f32⟩
  | .local _ .vmem, ⟨0, _⟩ => ⟨S2x524288, .f32⟩
  | .local _ .vmem, ⟨1, _⟩ => ⟨S2x524288, .f32⟩
  | .local _ .vmem, ⟨2, _⟩ => ⟨S40x16, .f32⟩
  | .local _ .vmem, ⟨3, _⟩ => ⟨S4096x128, .f32⟩
  | .local _ .vmem, ⟨4, _⟩ => ⟨S4096x128, .f32⟩
  | _, _ => ⟨S2x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_c_4 : Ref sig .tc := ⟨.hbm, 24, rfl⟩
abbrev main_v9 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_6 : Ref sig .tc := ⟨.hbm, 31, rfl⟩
abbrev main_call2_v0 : Ref sig .tc := ⟨.hbm, 32, rfl⟩
abbrev main_v14 : Ref sig .tc := ⟨.hbm, 33, rfl⟩
abbrev main_cst_7 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_8 : Ref sig .tc := ⟨.hbm, 39, rfl⟩
abbrev main_call3_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S10x2_S16x2_060_000 : S10x2.Pads (![0, 0] : Fin 2 → Nat) ![6, 0] ![0, 0] S16x2
  h_S_ : 0 < S_.numel
  bcast_S_S1 : S_.BroadcastsInDim S1 (![] : Fin 0 → Fin S1.rank)
  concatenates_S10_S1_S11_d0 : Shape.Concatenates [S10, S1] S11 0
  pads_S11_S16_050 : S11.Pads (![0] : Fin 1 → Nat) ![5] ![0] S16
  bcast_S16_S16x1_0 : S16.BroadcastsInDim S16x1 (![0] : Fin 1 → Fin S16x1.rank)
  bcast_S_S16x13 : S_.BroadcastsInDim S16x13 (![] : Fin 0 → Fin S16x13.rank)
  concatenates_S16x2_S16x1_S16x13_S16x16_d1 : Shape.Concatenates [S16x2, S16x1, S16x13] S16x16 1
  bcast_S_S1x16 : S_.BroadcastsInDim S1x16 (![] : Fin 0 → Fin S1x16.rank)
  concatenates_S1_S1_S2_d0 : Shape.Concatenates [S1, S1] S2 0
  bcast_S10_S10x1_0 : S10.BroadcastsInDim S10x1 (![0] : Fin 1 → Fin S10x1.rank)
  concatenates_S10x10_S10x1_S10x11_d1 : Shape.Concatenates [S10x10, S10x1] S10x11 1
  pads_S10x11_S10x16_000_050 : S10x11.Pads (![0, 0] : Fin 2 → Nat) ![0, 5] ![0, 0] S10x16
  bcast_S_S5x16 : S_.BroadcastsInDim S5x16 (![] : Fin 0 → Fin S5x16.rank)
  concatenates_S10x16_S1x16_S5x16_S16x16_d0 : Shape.Concatenates [S10x16, S1x16, S5x16] S16x16 0
  bcast_S1_S1x1_0 : S1.BroadcastsInDim S1x1 (![0] : Fin 1 → Fin S1x1.rank)
  concatenates_S1x10_S1x1_S1x11_d1 : Shape.Concatenates [S1x10, S1x1] S1x11 1
  pads_S1x11_S8x16_070_050 : S1x11.Pads (![0, 0] : Fin 2 → Nat) ![7, 5] ![0, 0] S8x16
  concatenates_S16x16_S16x16_S8x16_S40x16_d0 : Shape.Concatenates [S16x16, S16x16, S8x16] S40x16 0
  inb_S40x16_S16x2_0_0 : ∀ a, (![0, 0] : Fin 2 → Nat) a + S16x2.size a ≤ S40x16.size a
  h_S16x2 : 0 < S16x2.numel
  shapeCasts_S16x2_S16x2 : S16x2.ShapeCasts S16x2
  inb_S40x16_S16x1_0_2 : ∀ a, (![0, 2] : Fin 2 → Nat) a + S16x1.size a ≤ S40x16.size a
  h_S16x1 : 0 < S16x1.numel
  shapeCasts_S16x1_S16x1 : S16x1.ShapeCasts S16x1
  inb_S40x16_S16x16_16_0 : ∀ a, (![16, 0] : Fin 2 → Nat) a + S16x16.size a ≤ S40x16.size a
  h_S16x16 : 0 < S16x16.numel
  shapeCasts_S16x16_S16x16 : S16x16.ShapeCasts S16x16
  inb_S40x16_S8x16_32_0 : ∀ a, (![32, 0] : Fin 2 → Nat) a + S8x16.size a ≤ S40x16.size a
  h_S8x16 : 0 < S8x16.numel
  shapeCasts_S8x16_S8x16 : S8x16.ShapeCasts S8x16
  inb_S2x524288_S2x524288_0_0 : ∀ a, (![0, 0] : Fin 2 → Nat) a + S2x524288.size a ≤ S2x524288.size a
  h_S2x524288 : 0 < S2x524288.numel
  broadcasts_S16x1_S16x524288 : S16x1.Broadcasts S16x524288
  slices_S8x524288_o0_0_S1x524288 : S8x524288.Slices ![0, 0] S1x524288
  shapeCasts_S1x524288_S4096x128 : S1x524288.ShapeCasts S4096x128
  inb_S4096x128_S4096x128_0_0 : ∀ a, (![0, 0] : Fin 2 → Nat) a + S4096x128.size a ≤ S4096x128.size a
  h_S4096x128 : 0 < S4096x128.numel
  shapeCasts_S32768x128_S4194304x1 : S32768x128.ShapeCasts S4194304x1
  scatter_S1x16_S2_S__n_01_01_0_wf : ScatterDims.WF S1x16 S2 S_ [] [0, 1] [0, 1] 0
  dot_S16x2_S2x524288_S16x524288_1_0_0_1_n_n_wf : DotDims.WF S16x2 S2x524288 S16x524288 [1] [0] [0] [1] [] []
  dot_S16x16_S16x524288_S16x524288_1_0_0_1_n_n_wf : DotDims.WF S16x16 S16x524288 S16x524288 [1] [0] [0] [1] [] []
  dot_S8x16_S16x524288_S8x524288_1_0_0_1_n_n_wf : DotDims.WF S8x16 S16x524288 S8x524288 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x524288.size a ≤ S2x4194304.size a
  hwx0_0 : ∀ i : grid0.Coords, EltTy.bits .f32 = 32 ∨ (Rect.block (s := S2x4194304) S2x524288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x16.size a ≤ S40x16.size a
  hwx0_1 : ∀ i : grid0.Coords, EltTy.bits .f32 = 32 ∨ (Rect.block (s := S40x16) S40x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S32768x128.size a
  hwx0_2 : ∀ i : grid0.Coords, EltTy.bits .f32 = 32 ∨ (Rect.block (s := S32768x128) S4096x128.size (cc0_transform_2 i) (hinb0_2 i)).WholeWords (EltTy.packing .f32)

variable [Facts₀]

def scatter_S1x16_S2_S__n_01_01_0 : ScatterDims S1x16 S2 S_ where
  updateWindowDims := []
  insertedWindowDims := [0, 1]
  scatterDimsToOperandDims := [0, 1]
  indexVectorDim := 0
  wf := scatter_S1x16_S2_S__n_01_01_0_wf
def dot_S16x2_S2x524288_S16x524288_1_0_0_1_n_n : DotDims S16x2 S2x524288 S16x524288 where
  lhsContracting := [1]
  rhsContracting := [0]
  lhsNonContracting := [0]
  rhsNonContracting := [1]
  lhsBatch := []
  rhsBatch := []
  wf := dot_S16x2_S2x524288_S16x524288_1_0_0_1_n_n_wf
def dot_S16x16_S16x524288_S16x524288_1_0_0_1_n_n : DotDims S16x16 S16x524288 S16x524288 where
  lhsContracting := [1]
  rhsContracting := [0]
  lhsNonContracting := [0]
  rhsNonContracting := [1]
  lhsBatch := []
  rhsBatch := []
  wf := dot_S16x16_S16x524288_S16x524288_1_0_0_1_n_n_wf
def dot_S8x16_S16x524288_S8x524288_1_0_0_1_n_n : DotDims S8x16 S16x524288 S8x524288 where
  lhsContracting := [1]
  rhsContracting := [0]
  lhsNonContracting := [0]
  rhsNonContracting := [1]
  lhsBatch := []
  rhsBatch := []
  wf := dot_S8x16_S16x524288_S8x524288_1_0_0_1_n_n_wf

abbrev win0_0 : Pipeline.Window sig grid0 :=
  Pipeline.Window.ofSpec (Memref.whole main_arg0) S2x524288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S40x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x4194304 : Shape := ⟨2, ![2, 4194304]⟩
abbrev S10x2 : Shape := ⟨2, ![10, 2]⟩
abbrev S10 : Shape := ⟨1, ![10]⟩
abbrev S10x10 : Shape := ⟨2, ![10, 10]⟩
abbrev S1x10 : Shape := ⟨2, ![1, 10]⟩
abbrev S1 : Shape := ⟨1, ![1]⟩
abbrev S_ : Shape := ⟨0, ![]⟩
abbrev S10x3 : Shape := ⟨2, ![10, 3]⟩
abbrev S2 : Shape := ⟨1, ![2]⟩
abbrev S1x4194304 : Shape := ⟨2, ![1, 4194304]⟩
abbrev S2x32768 : Shape := ⟨2, ![2, 32768]⟩
abbrev S1x32768 : Shape := ⟨2, ![1, 32768]⟩
abbrev S10x1 : Shape := ⟨2, ![10, 1]⟩
abbrev S1x1 : Shape := ⟨2, ![1, 1]⟩
abbrev S10x32768 : Shape := ⟨2, ![10, 32768]⟩
abbrev S4194304 : Shape := ⟨1, ![4194304]⟩
abbrev S4194304x1 : Shape := ⟨2, ![4194304, 1]⟩

abbrev nBuf : Space → Nat
  | .hbm => 25
  | .vmem => 8
  | .smem => 0
  | _ => 0

abbrev bufTy : (tb : Table) → Fin (tcTables nBuf tb) → BufTy
  | .hbm, ⟨0, _⟩ => ⟨S2x4194304, .f32⟩
  | .hbm, ⟨1, _⟩ => ⟨S10x2, .f32⟩
  | .hbm, ⟨2, _⟩ => ⟨S10, .f32⟩
  | .hbm, ⟨3, _⟩ => ⟨S10x10, .f32⟩
  | .hbm, ⟨4, _⟩ => ⟨S10, .f32⟩
  | .hbm, ⟨5, _⟩ => ⟨S1x10, .f32⟩
  | .hbm, ⟨6, _⟩ => ⟨S1, .f32⟩
  | .hbm, ⟨7, _⟩ => ⟨S_, .f32⟩
  | .hbm, ⟨8, _⟩ => ⟨S10x3, .f32⟩
  | .hbm, ⟨9, _⟩ => ⟨S_, .i32⟩
  | .hbm, ⟨10, _⟩ => ⟨S1, .i32⟩
  | .hbm, ⟨11, _⟩ => ⟨S10x3, .f32⟩
  | .hbm, ⟨12, _⟩ => ⟨S_, .i32⟩
  | .hbm, ⟨13, _⟩ => ⟨S1, .i32⟩
  | .hbm, ⟨14, _⟩ => ⟨S10x3, .f32⟩
  | .hbm, ⟨15, _⟩ => ⟨S_, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S10x3, .f32⟩
  | .hbm, ⟨22, _⟩ => ⟨S1x4194304, .f32⟩
  | .hbm, ⟨23, _⟩ => ⟨S4194304, .f32⟩
  | .hbm, ⟨24, _⟩ => ⟨S4194304x1, .f32⟩
  | .local _ .vmem, ⟨0, _⟩ => ⟨S2x32768, .f32⟩
  | .local _ .vmem, ⟨1, _⟩ => ⟨S2x32768, .f32⟩
  | .local _ .vmem, ⟨2, _⟩ => ⟨S10x2, .f32⟩
  | .local _ .vmem, ⟨3, _⟩ => ⟨S10x10, .f32⟩
  | .local _ .vmem, ⟨4, _⟩ => ⟨S1x10, .f32⟩
  | .local _ .vmem, ⟨5, _⟩ => ⟨S10x3, .f32⟩
  | .local _ .vmem, ⟨6, _⟩ => ⟨S1x32768, .f32⟩
  | .local _ .vmem, ⟨7, _⟩ => ⟨S1x32768, .f32⟩
  | _, _ => ⟨S2x4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S10x3 : S_.BroadcastsInDim S10x3 (![] : Fin 0 → Fin S10x3.rank)
  bcast_S_S1 : S_.BroadcastsInDim S1 (![] : Fin 0 → Fin S1.rank)
  shapeCasts_S1_S_ : S1.ShapeCasts S_
  concatenates_S1_S1_S2_d0 : Shape.Concatenates [S1, S1] S2 0
  inb_S2x32768_S2x32768_0_0 : ∀ a, (![0, 0] : Fin 2 → Nat) a + S2x32768.size a ≤ S2x32768.size a
  h_S2x32768 : 0 < S2x32768.numel
  inb_S10x3_S10x1_0_0 : ∀ a, (![0, 0] : Fin 2 → Nat) a + S10x1.size a ≤ S10x3.size a
  h_S10x1 : 0 < S10x1.numel
  shapeCasts_S10x1_S10x1 : S10x1.ShapeCasts S10x1
  inb_S10x3_S10x1_0_1 : ∀ a, (![0, 1] : Fin 2 → Nat) a + S10x1.size a ≤ S10x3.size a
  inb_S10x3_S1x1_0_2 : ∀ a, (![0, 2] : Fin 2 → Nat) a + S1x1.size a ≤ S10x3.size a
  h_S1x1 : 0 < S1x1.numel
  shapeCasts_S1x1_S1x1 : S1x1.ShapeCasts S1x1
  inb_S10x2_S10x2_0_0 : ∀ a, (![0, 0] : Fin 2 → Nat) a + S10x2.size a ≤ S10x2.size a
  h_S10x2 : 0 < S10x2.numel
  broadcasts_S10x1_S10x32768 : S10x1.Broadcasts S10x32768
  inb_S10x10_S10x10_0_0 : ∀ a, (![0, 0] : Fin 2 → Nat) a + S10x10.size a ≤ S10x10.size a
  h_S10x10 : 0 < S10x10.numel
  inb_S1x10_S1x10_0_0 : ∀ a, (![0, 0] : Fin 2 → Nat) a + S1x10.size a ≤ S1x10.size a
  h_S1x10 : 0 < S1x10.numel
  broadcasts_S1x1_S1x32768 : S1x1.Broadcasts S1x32768
  inb_S1x32768_S1x32768_0_0 : ∀ a, (![0, 0] : Fin 2 → Nat) a + S1x32768.size a ≤ S1x32768.size a
  h_S1x32768 : 0 < S1x32768.numel
  shapeCasts_S1x4194304_S4194304 : S1x4194304.ShapeCasts S4194304
  shapeCasts_S4194304_S4194304x1 : S4194304.ShapeCasts S4194304x1
  scatter_S10x3_S1_S10_0_1_1_0_wf : ScatterDims.WF S10x3 S1 S10 [0] [1] [1] 0
  scatter_S10x3_S2_S__n_01_01_0_wf : ScatterDims.WF S10x3 S2 S_ [] [0, 1] [0, 1] 0
  dot_S10x2_S2x32768_S10x32768_1_0_0_1_n_n_wf : DotDims.WF S10x2 S2x32768 S10x32768 [1] [0] [0] [1] [] []
  dot_S10x10_S10x32768_S10x32768_1_0_0_1_n_n_wf : DotDims.WF S10x10 S10x32768 S10x32768 [1] [0] [0] [1] [] []
  dot_S1x10_S10x32768_S1x32768_1_0_0_1_n_n_wf : DotDims.WF S1x10 S10x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32768.size a ≤ S2x4194304.size a
  hwx0_0 : ∀ i : grid0.Coords, EltTy.bits .f32 = 32 ∨ (Rect.block (s := S2x4194304) S2x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x2.size a ≤ S10x2.size a
  hwx0_1 : ∀ i : grid0.Coords, EltTy.bits .f32 = 32 ∨ (Rect.block (s := S10x2) S10x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x3.size a ≤ S10x3.size a
  hwx0_4 : ∀ i : grid0.Coords, EltTy.bits .f32 = 32 ∨ (Rect.block (s := S10x3) S10x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32768.size a ≤ S1x4194304.size a
  hwx0_5 : ∀ i : grid0.Coords, EltTy.bits .f32 = 32 ∨ (Rect.block (s := S1x4194304) S1x32768.size (cc0_transform_5 i) (hinb0_5 i)).WholeWords (EltTy.packing .f32)

variable [Facts₀]

def scatter_S10x3_S1_S10_0_1_1_0 : ScatterDims S10x3 S1 S10 where
  updateWindowDims := [0]
  insertedWindowDims := [1]
  scatterDimsToOperandDims := [1]
  indexVectorDim := 0
  wf := scatter_S10x3_S1_S10_0_1_1_0_wf
def scatter_S10x3_S2_S__n_01_01_0 : ScatterDims S10x3 S2 S_ where
  updateWindowDims := []
  insertedWindowDims := [0, 1]
  scatterDimsToOperandDims := [0, 1]
  indexVectorDim := 0
  wf := scatter_S10x3_S2_S__n_01_01_0_wf
def dot_S10x2_S2x32768_S10x32768_1_0_0_1_n_n : DotDims S10x2 S2x32768 S10x32768 where
  lhsContracting := [1]
  rhsContracting := [0]
  lhsNonContracting := [0]
  rhsNonContracting := [1]
  lhsBatch := []
  rhsBatch := []
  wf := dot_S10x2_S2x32768_S10x32768_1_0_0_1_n_n_wf
def dot_S10x10_S10x32768_S10x32768_1_0_0_1_n_n : DotDims S10x10 S10x32768 S10x32768 where
  lhsContracting := [1]
  rhsContracting := [0]
  lhsNonContracting := [0]
  rhsNonContracting := [1]
  lhsBatch := []
  rhsBatch := []
  wf := dot_S10x10_S10x32768_S10x32768_1_0_0_1_n_n_wf
def dot_S1x10_S10x32768_S1x32768_1_0_0_1_n_n : DotDims S1x10 S10x32768 S1x32768 where
  lhsContracting := [1]
  rhsContracting := [0]
  lhsNonContracting := [0]
  rhsNonContracting := [1]
  lhsBatch := []
  rhsBatch := []
  wf := dot_S1x10_S10x32768_S1x32768_1_0_0_1_n_n_wf

abbrev win0_0 : Pipeline.Window sig grid0 :=
  Pipeline.Window.ofSpec (Memref.whole main_arg0) S2x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S10x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KernelFrame.lean ====
/-
  The frame of the program with the packed-parameter kernel: every weakly fair execution of @main
  terminates without a fault and leaves the seven argument arrays as they were, at any float instance.

  @main is: host operations that build the packed 40 × 16 parameter array (nine stretches: four
  padding calls and the lines between them), ONE pipelined kernel launch over a grid of 8 points,
  and one reshape after it. The launch stages three windows: window 0 the 2 × 4194304 input by
  column blocks of 524288, window 1 the packed array whole (fetched once), window 2 the
  32768 × 128 result by row blocks of 4096, written back at every point.

  The kernel body at a point loads four rectangles of the packed array and the whole input block,
  computes one value (the generated skeleton's payload) and stores it over the whole output block.
  So after the body the output's staging buffer holds that payload of the point's input blocks
  (`out0_2`), the inputs' buffers are untouched; this is the proof data (`dats`) the library's
  launch theorem asks for, and the body obligation is the symbolic run of the body (`sound_kernel`).
  The library then gives the run of the whole of @main (`run_main`): every window's array at what the
  proof data computes, every other buffer as the host lines leave it. The argument arrays: the input
  is a staged input window (unchanged by the library's lemma), the six parameter arrays are staged by
  no window and written by no host line (`V_main_arg…`, `W_main_arg…`).
-/
import proofs.«159392_g2000409670772848_pallaspilot1_20_20_alg».proof.Proof.Gen.Kernel.Launch
import proofs.«159392_g2000409670772848_pallaspilot1_20_20_alg».proof.Proof.Gen.Kernel.Skeleton
import proofs.«159392_g2000409670772848_pallaspilot1_20_20_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle with 4096 rows: the elaborator's structural look recurses once per coordinate
set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the nine stretches of host
    operations that build the packed array. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The reshape after the region touches the pipeline's arrays and unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes argument 6, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the seven
    argument arrays unchanged: the input is a staged input window, the parameters are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's accesses -/

/-- The whole input block. -/
abbrev rX : Rect S2x524288 := Rect.unit (s := S2x524288) ![0, 0] S2x524288.size inb_S2x524288_S2x524288_0_0
/-- Rows 0–15, columns 0–1 of the packed array: the padded first-layer weights. -/
abbrev rW1 : Rect S40x16 := Rect.unit (s := S40x16) ![0, 0] S16x2.size inb_S40x16_S16x2_0_0
/-- Rows 0–15, column 2: the first-layer bias with the planted one. -/
abbrev rB1 : Rect S40x16 := Rect.unit (s := S40x16) ![0, 2] S16x1.size inb_S40x16_S16x1_0_2
/-- Rows 16–31: the second layer. -/
abbrev rW2 : Rect S40x16 := Rect.unit (s := S40x16) ![16, 0] S16x16.size inb_S40x16_S16x16_16_0
/-- Rows 32–39: the output layer. -/
abbrev rW3 : Rect S40x16 := Rect.unit (s := S40x16) ![32, 0] S8x16.size inb_S40x16_S8x16_32_0
/-- The whole output block. -/
abbrev rO : Rect S4096x128 := Rect.unit (s := S4096x128) ![0, 0] S4096x128.size inb_S4096x128_S4096x128_0_0

/-! ## What the body leaves in the output window's buffer -/

/-- The output's staging buffer after the body, from the input windows' blocks `x0` (input) and `x1` (packed array):
    its one store, of the skeleton's payload of the five loaded rectangles. -/
def out0_2 (x0 : Vec F S2x524288 .f32) (x1 : Vec F S40x16 .f32) : Vec F S4096x128 .f32 :=
  View.canon [⟨rO, k0_pay1 (View.ld x1 rW1) (View.ld x1 rB1) (View.ld x1 rW2) (View.ld x1 rW3) (View.ld x0 rX)⟩]

/-- The one store covers the buffer. -/
theorem cover0_2 (p0 : Vec F S4096x128 .f32) (y : S4096x128.Idx) :
    ∃ pc ∈ ([⟨rO, p0⟩] : List (View.Piece (Elt F) S4096x128 .f32)), y ∈ pc.1.set :=
  View.cover_of_tiled [⟨rO, p0⟩] S4096x128.size (by rfl) y

/-! ## The body's triple -/

set_option maxHeartbeats 1000000 in
/-- The kernel body on whole staging memrefs, the inputs' at contents `x0`, `x1` and the output's at anything, runs to the
    continuation holding the inputs' as they were and the output's at `out0_2 x0 x1`. -/
theorem sound_kernel (c : Dev nD) (E : Set ℕ) (i : grid0.Coords) (arg1 : Memref sig .tc .vmem S2x524288 .f32) (harg1 : arg1.IsWhole) (arg2 : Memref sig .tc .vmem S40x16 .f32) (harg2 : arg2.IsWhole) (arg3 : Memref sig .tc .vmem S4096x128 .f32) (harg3 : arg3.IsWhole)
    (x0 : Vec F S2x524288 .f32) (x1 : Vec F S40x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mlp_kernel i arg1 harg1 arg2 harg2 arg3 harg3) K := by
  simp only [cc0__mlp_kernel_eq_skeleton]; unfold cc0__mlp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at `out0_2` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (by projection, never unfolding the host prefix). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- From any memory with zero counters every weakly fair execution of @main terminates, and every final state has every
    array of the pipeline at what the library computes from the proof data and every other unscoped buffer as the reshape
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frm

end
-- ==== Proof.KernelIdealFrame.lean ====
/-
  The frame of the program with the packed-parameter kernel: every weakly fair execution of @main
  terminates without a fault and leaves the seven argument arrays as they were, at any float instance.

  @main is: host operations that build the packed 40 × 16 parameter array (nine stretches: four
  padding calls and the lines between them), ONE pipelined kernel launch over a grid of 8 points,
  and one reshape after it. The launch stages three windows: window 0 the 2 × 4194304 input by
  column blocks of 524288, window 1 the packed array whole (fetched once), window 2 the
  32768 × 128 result by row blocks of 4096, written back at every point.

  The kernel body at a point loads four rectangles of the packed array and the whole input block,
  computes one value (the generated skeleton's payload) and stores it over the whole output block.
  So after the body the output's staging buffer holds that payload of the point's input blocks
  (`out0_2`), the inputs' buffers are untouched; this is the proof data (`dats`) the library's
  launch theorem asks for, and the body obligation is the symbolic run of the body (`sound_kernel`).
  The library then gives the run of the whole of @main (`run_main`): every window's array at what the
  proof data computes, every other buffer as the host lines leave it. The argument arrays: the input
  is a staged input window (unchanged by the library's lemma), the six parameter arrays are staged by
  no window and written by no host line (`V_main_arg…`, `W_main_arg…`).
-/
import proofs.«159392_g2000409670772848_pallaspilot1_20_20_alg».proof.Proof.Gen.KernelIdeal.Launch
import proofs.«159392_g2000409670772848_pallaspilot1_20_20_alg».proof.Proof.Gen.KernelIdeal.Skeleton
import proofs.«159392_g2000409670772848_pallaspilot1_20_20_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle with 4096 rows: the elaborator's structural look recurses once per coordinate
set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the nine stretches of host
    operations that build the packed array. -/
abbrev V0 (c : Dev nD) : Valuation τ sig (Elt F) :=
  StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The reshape after the region touches the pipeline's arrays and unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes argument 3, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes argument 5, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes argument 6, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post gives the seven
    argument arrays unchanged: the input is a staged input window, the parameters are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's accesses -/

/-- The whole input block. -/
abbrev rX : Rect S2x524288 := Rect.unit (s := S2x524288) ![0, 0] S2x524288.size inb_S2x524288_S2x524288_0_0
/-- Rows 0–15, columns 0–1 of the packed array: the padded first-layer weights. -/
abbrev rW1 : Rect S40x16 := Rect.unit (s := S40x16) ![0, 0] S16x2.size inb_S40x16_S16x2_0_0
/-- Rows 0–15, column 2: the first-layer bias with the planted one. -/
abbrev rB1 : Rect S40x16 := Rect.unit (s := S40x16) ![0, 2] S16x1.size inb_S40x16_S16x1_0_2
/-- Rows 16–31: the second layer. -/
abbrev rW2 : Rect S40x16 := Rect.unit (s := S40x16) ![16, 0] S16x16.size inb_S40x16_S16x16_16_0
/-- Rows 32–39: the output layer. -/
abbrev rW3 : Rect S40x16 := Rect.unit (s := S40x16) ![32, 0] S8x16.size inb_S40x16_S8x16_32_0
/-- The whole output block. -/
abbrev rO : Rect S4096x128 := Rect.unit (s := S4096x128) ![0, 0] S4096x128.size inb_S4096x128_S4096x128_0_0

/-! ## What the body leaves in the output window's buffer -/

/-- The output's staging buffer after the body, from the input windows' blocks `x0` (input) and `x1` (packed array):
    its one store, of the skeleton's payload of the five loaded rectangles. -/
def out0_2 (x0 : Vec F S2x524288 .f32) (x1 : Vec F S40x16 .f32) : Vec F S4096x128 .f32 :=
  View.canon [⟨rO, k0_pay1 (View.ld x1 rW1) (View.ld x1 rB1) (View.ld x1 rW2) (View.ld x1 rW3) (View.ld x0 rX)⟩]

/-- The one store covers the buffer. -/
theorem cover0_2 (p0 : Vec F S4096x128 .f32) (y : S4096x128.Idx) :
    ∃ pc ∈ ([⟨rO, p0⟩] : List (View.Piece (Elt F) S4096x128 .f32)), y ∈ pc.1.set :=
  View.cover_of_tiled [⟨rO, p0⟩] S4096x128.size (by rfl) y

/-! ## The body's triple -/

set_option maxHeartbeats 1000000 in
/-- The kernel body on whole staging memrefs, the inputs' at contents `x0`, `x1` and the output's at anything, runs to the
    continuation holding the inputs' as they were and the output's at `out0_2 x0 x1`. -/
theorem sound_kernel (c : Dev nD) (E : Set ℕ) (i : grid0.Coords) (arg1 : Memref sig .tc .vmem S2x524288 .f32) (harg1 : arg1.IsWhole) (arg2 : Memref sig .tc .vmem S40x16 .f32) (harg2 : arg2.IsWhole) (arg3 : Memref sig .tc .vmem S4096x128 .f32) (harg3 : arg3.IsWhole)
    (x0 : Vec F S2x524288 .f32) (x1 : Vec F S40x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__mlp_kernel i arg1 harg1 arg2 harg2 arg3 harg3) K := by
  simp only [cc0__mlp_kernel_eq_skeleton]; unfold cc0__mlp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at `out0_2` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (by projection, never unfolding the host prefix). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- From any memory with zero counters every weakly fair execution of @main terminates, and every final state has every
    array of the pipeline at what the library computes from the proof data and every other unscoped buffer as the reshape
    after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frm

end
-- ==== Proof.MlpSpec.lean ====
/-
  The mathematics both programs compute, stated once over the extended reals and over no program.

  A sample is a pair of features `x 0, x 1`. The network is
    h1 j = max (Σ_{k<2} w1 j k · x k + b1 j) 0          (ten hidden units)
    h2 i = max (Σ_{j<10} w2 i j · h1 j + b2 i) 0         (ten hidden units)
    y    = Σ_{i<10} w3 i · h2 i + b3
  (`mlp`). The result array holds `y` of sample `b` at row `b` of a 4194304 × 1 array (`G`).

  The second form (`mlpAug`) is the same network written over ONE packed 40 × 16 array `A`:
  rows 0–15 hold the first layer padded to sixteen units, its bias in column 2, and a unit whose
  bias is 1 and whose weights are 0 (unit 10), so that unit's activation is the constant 1;
  rows 16–31 hold the second layer with its bias in column 10 (multiplying the constant-1 unit)
  and a row that copies the constant-1 unit forward; row 32 holds the last layer with its bias in
  column 10. `packed` says what that array holds, cell by cell, as a function of the six
  parameter arrays; `bias3` says what the 10 × 3 bias array of the other program holds.
-/
import Idealize.ShloMosaic.Lib.ValueIdx

noncomputable section

open scoped BigOperators

namespace Cert.MlpSpec

open Idealize.ShloMosaic Idealize.ShloMosaic.ValueIdx

/-! ## The network on one sample -/

/-- First hidden layer: unit `j` of a sample with features `x`. -/
def h1 (w1 : Fin 10 → Fin 2 → EReal) (b1 : Fin 10 → EReal) (x : Fin 2 → EReal) (j : Fin 10) : EReal :=
  max ((∑ k : Fin 2, w1 j k * x k) + b1 j) 0

/-- Second hidden layer: unit `i` from the first layer's activations `h`. -/
def h2 (w2 : Fin 10 → Fin 10 → EReal) (b2 : Fin 10 → EReal) (h : Fin 10 → EReal) (i : Fin 10) : EReal :=
  max ((∑ j : Fin 10, w2 i j * h j) + b2 i) 0

/-- The output unit from the second layer's activations `h`. -/
def out (w3 : Fin 10 → EReal) (b3 : EReal) (h : Fin 10 → EReal) : EReal :=
  (∑ i : Fin 10, w3 i * h i) + b3

/-- The network's value on one sample. -/
def mlp (w1 : Fin 10 → Fin 2 → EReal) (b1 : Fin 10 → EReal) (w2 : Fin 10 → Fin 10 → EReal) (b2 : Fin 10 → EReal)
    (w3 : Fin 10 → EReal) (b3 : EReal) (x : Fin 2 → EReal) : EReal :=
  out w3 b3 (h2 w2 b2 (h1 w1 b1 x))

/-! ## The same network over one packed 40 × 16 array -/

/-- Rows 0–15, columns 0–1 are the padded first-layer weights and column 2 its bias: sixteen units. -/
def h1Aug (A : Fin 40 → Fin 16 → EReal) (x : Fin 2 → EReal) (j : Fin 16) : EReal :=
  max ((∑ k : Fin 2, A ⟨j.val, by omega⟩ ⟨k.val, by omega⟩ * x k) + A ⟨j.val, by omega⟩ 2) 0

/-- Rows 16–31 are the second layer over sixteen inputs; no separate bias. -/
def h2Aug (A : Fin 40 → Fin 16 → EReal) (h : Fin 16 → EReal) (i : Fin 16) : EReal :=
  max (∑ j : Fin 16, A ⟨16 + i.val, by omega⟩ j * h j) 0

/-- Row 32 is the output unit over sixteen inputs; no separate bias. -/
def outAug (A : Fin 40 → Fin 16 → EReal) (h : Fin 16 → EReal) : EReal :=
  ∑ j : Fin 16, A 32 j * h j

/-- The packed form's value on one sample. -/
def mlpAug (A : Fin 40 → Fin 16 → EReal) (x : Fin 2 → EReal) : EReal :=
  outAug A (h2Aug A (h1Aug A x))

/-- What the packed array holds, cell by cell. -/
def packed (w1 : Fin 10 → Fin 2 → EReal) (b1 : Fin 10 → EReal) (w2 : Fin 10 → Fin 10 → EReal) (b2 : Fin 10 → EReal)
    (w3 : Fin 10 → EReal) (b3 : EReal) (r : Fin 40) (k : Fin 16) : EReal :=
  if hr : r.val < 16 then
    -- the first layer, padded: weights, then the bias column with the planted 1
    if hk : k.val < 2 then (if h : r.val < 10 then w1 ⟨r.val, h⟩ ⟨k.val, hk⟩ else 0)
    else if k.val = 2 then (if h : r.val < 10 then b1 ⟨r.val, h⟩ else if r.val = 10 then 1 else 0)
    else 0
  else if hr2 : r.val < 32 then
    -- the second layer: weights, the bias in column 10, and the row that carries the 1 forward
    if h : r.val - 16 < 10 then
      (if hk : k.val < 10 then w2 ⟨r.val - 16, h⟩ ⟨k.val, hk⟩ else if k.val = 10 then b2 ⟨r.val - 16, h⟩ else 0)
    else if r.val - 16 = 10 then (if k.val = 10 then 1 else 0)
    else 0
  else
    -- the output unit in row 32: weights, then the bias in column 10
    if r.val = 32 then (if hk : k.val < 10 then w3 ⟨k.val, hk⟩ else if k.val = 10 then b3 else 0)
    else 0

/-- What the other program's 10 × 3 bias array holds: column 0 the first bias, column 1 the second,
    and the last bias in cell (0, 2); zero elsewhere. -/
def bias3 (b1 b2 : Fin 10 → EReal) (b3 : EReal) (j : Fin 10) (q : Fin 3) : EReal :=
  if q.val = 0 then b1 j else if q.val = 1 then b2 j else if j.val = 0 then b3 else 0

/-! ## The whole result array -/

abbrev SX : Shape := ⟨2, ![2, 4194304]⟩
abbrev SW1 : Shape := ⟨2, ![10, 2]⟩
abbrev SB : Shape := ⟨1, ![10]⟩
abbrev SW2 : Shape := ⟨2, ![10, 10]⟩
abbrev SW3 : Shape := ⟨2, ![1, 10]⟩
abbrev SB3 : Shape := ⟨1, ![1]⟩
abbrev SY : Shape := ⟨2, ![4194304, 1]⟩

/-- The parameter arrays as plain coordinate functions. -/
def cW1 (W1 : SW1.Idx → EReal) : Fin 10 → Fin 2 → EReal := fun j k => W1 (ix2 j k)
def cB (B : SB.Idx → EReal) : Fin 10 → EReal := fun j => B (ix1 j)
def cW2 (W2 : SW2.Idx → EReal) : Fin 10 → Fin 10 → EReal := fun i j => W2 (ix2 i j)
def cW3 (W3 : SW3.Idx → EReal) : Fin 10 → EReal := fun i => W3 (ix2 (0 : Fin 1) i)
def cB3 (B3 : SB3.Idx → EReal) : EReal := B3 (ix1 (0 : Fin 1))
/-- Sample `b`'s two features: column `b` of the 2 × 4194304 input. -/
def cX (X : SX.Idx → EReal) (b : Fin 4194304) : Fin 2 → EReal := fun k => X (ix2 k b)

/-- The result array: row `b` holds the network's value on sample `b`. -/
def G (X : SX.Idx → EReal) (W1 : SW1.Idx → EReal) (B1 : SB.Idx → EReal) (W2 : SW2.Idx → EReal) (B2 : SB.Idx → EReal)
    (W3 : SW3.Idx → EReal) (B3 : SB3.Idx → EReal) : SY.Idx → EReal :=
  fun i => mlp (cW1 W1) (cB B1) (cW2 W2) (cB B2) (cW3 W3) (cB3 B3) (cX X (i 0))

end Cert.MlpSpec

end
-- ==== Proof.MlpAlgebra.lean ====
/-
  The packed form of the network equals the network.

  Over the extended reals, `0 * x = 0` for every `x`, `x * 1 = x`, and finite sums may be split;
  nothing else is used (no distributivity, no finiteness).

  With `A` the packed array:
  * first layer, sixteen units: unit `j < 10` is the network's unit `j`; unit 10 has weights 0 and
    bias 1, so it is `max (0 + 1) 0 = 1`; units 11–15 have weights 0 and bias 0, so they are 0;
  * second layer: row `i < 10` holds the weights in columns 0–9, the bias in column 10 (which
    multiplies the constant-1 unit) and 0 beyond; row 10 holds a single 1 in column 10, so it carries
    the constant 1 forward; rows 11–15 are 0;
  * output row: the weights in columns 0–9, the bias in column 10, 0 beyond.
-/
import proofs.«159392_g2000409670772848_pallaspilot1_20_20_alg».proof.Proof.MlpSpec

noncomputable section

open scoped BigOperators

namespace Cert.MlpSpec

/-- A sum over sixteen indices: the first ten, then the remaining six one by one. -/
theorem sum_sixteen (f : Fin 16 → EReal) :
    ∑ j : Fin 16, f j
      = (∑ j : Fin 10, f ⟨j.val, by omega⟩) + f 10 + f 11 + f 12 + f 13 + f 14 + f 15 := by
  rw [Fin.sum_univ_castSucc, Fin.sum_univ_castSucc, Fin.sum_univ_castSucc, Fin.sum_univ_castSucc,
    Fin.sum_univ_castSucc, Fin.sum_univ_castSucc]
  rfl

section cells

variable (w1 : Fin 10 → Fin 2 → EReal) (b1 : Fin 10 → EReal) (w2 : Fin 10 → Fin 10 → EReal)
  (b2 : Fin 10 → EReal) (w3 : Fin 10 → EReal) (b3 : EReal)

/-! ## The cells of the packed array -/

/-- Rows 0–9, columns 0–1: the first layer's weights. -/
theorem packed_w1 (r : Fin 40) (k : Fin 16) (hr : r.val < 10) (hk : k.val < 2) :
    packed w1 b1 w2 b2 w3 b3 r k = w1 ⟨r.val, hr⟩ ⟨k.val, hk⟩ := by
  unfold packed
  rw [dif_pos (show r.val < 16 by omega), dif_pos hk, dif_pos hr]

/-- Rows 10–15, columns 0–1: zero weights. -/
theorem packed_w1_pad (r : Fin 40) (k : Fin 16) (hr : 10 ≤ r.val) (hr' : r.val < 16) (hk : k.val < 2) :
    packed w1 b1 w2 b2 w3 b3 r k = 0 := by
  unfold packed
  rw [dif_pos hr', dif_pos hk, dif_neg (show ¬ r.val < 10 by omega)]

/-- Rows 0–9, column 2: the first layer's bias. -/
theorem packed_b1 (r : Fin 40) (k : Fin 16) (hr : r.val < 10) (hk : k.val = 2) :
    packed w1 b1 w2 b2 w3 b3 r k = b1 ⟨r.val, hr⟩ := by
  unfold packed
  rw [dif_pos (show r.val < 16 by omega), dif_neg (show ¬ k.val < 2 by omega), if_pos hk, dif_pos hr]

/-- Row 10, column 2: the planted 1. -/
theorem packed_one (r : Fin 40) (k : Fin 16) (hr : r.val = 10) (hk : k.val = 2) :
    packed w1 b1 w2 b2 w3 b3 r k = 1 := by
  unfold packed
  rw [dif_pos (show r.val < 16 by omega), dif_neg (show ¬ k.val < 2 by omega), if_pos hk,
    dif_neg (show ¬ r.val < 10 by omega), if_pos hr]

/-- Rows 11–15, column 2: zero bias. -/
theorem packed_b1_pad (r : Fin 40) (k : Fin 16) (hr : 10 < r.val) (hr' : r.val < 16) (hk : k.val = 2) :
    packed w1 b1 w2 b2 w3 b3 r k = 0 := by
  unfold packed
  rw [dif_pos hr', dif_neg (show ¬ k.val < 2 by omega), if_pos hk,
    dif_neg (show ¬ r.val < 10 by omega), if_neg (show ¬ r.val = 10 by omega)]

/-- Rows 16–25, columns 0–9: the second layer's weights. -/
theorem packed_w2 (i k : Fin 16) (hi : i.val < 10) (hk : k.val < 10) (hrow : 16 + i.val < 40) :
    packed w1 b1 w2 b2 w3 b3 ⟨16 + i.val, hrow⟩ k = w2 ⟨i.val, hi⟩ ⟨k.val, hk⟩ := by
  unfold packed
  rw [dif_neg (show ¬ 16 + i.val < 16 by omega), dif_pos (show 16 + i.val < 32 by omega),
    dif_pos (show 16 + i.val - 16 < 10 by omega), dif_pos hk]
  exact congrArg (fun t => w2 t ⟨k.val, hk⟩) (Fin.ext (Nat.add_sub_cancel_left 16 i.val))

/-- Rows 16–25, column 10: the second layer's bias. -/
theorem packed_b2 (i k : Fin 16) (hi : i.val < 10) (hk : k.val = 10) (hrow : 16 + i.val < 40) :
    packed w1 b1 w2 b2 w3 b3 ⟨16 + i.val, hrow⟩ k = b2 ⟨i.val, hi⟩ := by
  unfold packed
  rw [dif_neg (show ¬ 16 + i.val < 16 by omega), dif_pos (show 16 + i.val < 32 by omega),
    dif_pos (show 16 + i.val - 16 < 10 by omega), dif_neg (show ¬ k.val < 10 by omega), if_pos hk]
  exact congrArg b2 (Fin.ext (Nat.add_sub_cancel_left 16 i.val))

/-- Rows 16–25, columns 11–15: zero. -/
theorem packed_w2_pad (i k : Fin 16) (hi : i.val < 10) (hk : 10 < k.val) (hrow : 16 + i.val < 40) :
    packed w1 b1 w2 b2 w3 b3 ⟨16 + i.val, hrow⟩ k = 0 := by
  unfold packed
  rw [dif_neg (show ¬ 16 + i.val < 16 by omega), dif_pos (show 16 + i.val < 32 by omega),
    dif_pos (show 16 + i.val - 16 < 10 by omega), dif_neg (show ¬ k.val < 10 by omega),
    if_neg (show ¬ k.val = 10 by omega)]

/-- Row 26, column 10: the 1 that carries the constant unit forward. -/
theorem packed_carry (i k : Fin 16) (hi : i.val = 10) (hk : k.val = 10) (hrow : 16 + i.val < 40) :
    packed w1 b1 w2 b2 w3 b3 ⟨16 + i.val, hrow⟩ k = 1 := by
  unfold packed
  rw [dif_neg (show ¬ 16 + i.val < 16 by omega), dif_pos (show 16 + i.val < 32 by omega),
    dif_neg (show ¬ 16 + i.val - 16 < 10 by omega), if_pos (show 16 + i.val - 16 = 10 by omega),
    if_pos hk]

/-- Row 26, every other column: zero. -/
theorem packed_carry_zero (i k : Fin 16) (hi : i.val = 10) (hk : k.val ≠ 10) (hrow : 16 + i.val < 40) :
    packed w1 b1 w2 b2 w3 b3 ⟨16 + i.val, hrow⟩ k = 0 := by
  unfold packed
  rw [dif_neg (show ¬ 16 + i.val < 16 by omega), dif_pos (show 16 + i.val < 32 by omega),
    dif_neg (show ¬ 16 + i.val - 16 < 10 by omega), if_pos (show 16 + i.val - 16 = 10 by omega),
    if_neg hk]

/-- Rows 27–31: zero. -/
theorem packed_l2_zero (i k : Fin 16) (hi : 10 < i.val) (hrow : 16 + i.val < 40) :
    packed w1 b1 w2 b2 w3 b3 ⟨16 + i.val, hrow⟩ k = 0 := by
  unfold packed
  rw [dif_neg (show ¬ 16 + i.val < 16 by omega), dif_pos (show 16 + i.val < 32 by omega),
    dif_neg (show ¬ 16 + i.val - 16 < 10 by omega), if_neg (show ¬ 16 + i.val - 16 = 10 by omega)]

/-- Row 32, columns 0–9: the output unit's weights. -/
theorem packed_w3 (r : Fin 40) (k : Fin 16) (hr : r.val = 32) (hk : k.val < 10) :
    packed w1 b1 w2 b2 w3 b3 r k = w3 ⟨k.val, hk⟩ := by
  unfold packed
  rw [dif_neg (show ¬ r.val < 16 by omega), dif_neg (show ¬ r.val < 32 by omega), if_pos hr, dif_pos hk]

/-- Row 32, column 10: the output unit's bias. -/
theorem packed_b3 (r : Fin 40) (k : Fin 16) (hr : r.val = 32) (hk : k.val = 10) :
    packed w1 b1 w2 b2 w3 b3 r k = b3 := by
  unfold packed
  rw [dif_neg (show ¬ r.val < 16 by omega), dif_neg (show ¬ r.val < 32 by omega), if_pos hr,
    dif_neg (show ¬ k.val < 10 by omega), if_pos hk]

/-- Row 32, columns 11–15: zero. -/
theorem packed_w3_pad (r : Fin 40) (k : Fin 16) (hr : r.val = 32) (hk : 10 < k.val) :
    packed w1 b1 w2 b2 w3 b3 r k = 0 := by
  unfold packed
  rw [dif_neg (show ¬ r.val < 16 by omega), dif_neg (show ¬ r.val < 32 by omega), if_pos hr,
    dif_neg (show ¬ k.val < 10 by omega), if_neg (show ¬ k.val = 10 by omega)]

end cells

section layers

variable (w1 : Fin 10 → Fin 2 → EReal) (b1 : Fin 10 → EReal) (w2 : Fin 10 → Fin 10 → EReal)
  (b2 : Fin 10 → EReal) (w3 : Fin 10 → EReal) (b3 : EReal)

/-! ## The first layer, unit by unit -/

/-- Units 0–9 of the padded first layer are the network's first layer. -/
theorem h1Aug_lt (x : Fin 2 → EReal) (j : Fin 16) (hj : j.val < 10) :
    h1Aug (packed w1 b1 w2 b2 w3 b3) x j = h1 w1 b1 x ⟨j.val, hj⟩ := by
  unfold h1Aug h1
  rw [packed_b1 w1 b1 w2 b2 w3 b3 _ _ hj rfl]
  refine congrArg (fun s => max (s + b1 ⟨j.val, hj⟩) 0) ?_
  refine Finset.sum_congr rfl (fun k _ => ?_)
  rw [packed_w1 w1 b1 w2 b2 w3 b3 _ _ hj k.isLt]

/-- Unit 10 has zero weights and bias 1: its activation is the constant 1. -/
theorem h1Aug_ten (x : Fin 2 → EReal) (j : Fin 16) (hj : j.val = 10) :
    h1Aug (packed w1 b1 w2 b2 w3 b3) x j = 1 := by
  unfold h1Aug
  rw [packed_one w1 b1 w2 b2 w3 b3 _ _ hj rfl]
  have hs : (∑ k : Fin 2, packed w1 b1 w2 b2 w3 b3 ⟨j.val, by omega⟩ ⟨k.val, by omega⟩ * x k) = 0 := by
    refine Finset.sum_eq_zero (fun k _ => ?_)
    rw [packed_w1_pad w1 b1 w2 b2 w3 b3 _ _ (by simp only []; omega) (by simp only []; omega) k.isLt, zero_mul]
  rw [hs, zero_add]
  exact max_eq_left zero_le_one

/-- Units 11–15 have zero weights and zero bias: their activation is 0. -/
theorem h1Aug_gt (x : Fin 2 → EReal) (j : Fin 16) (hj : 10 < j.val) :
    h1Aug (packed w1 b1 w2 b2 w3 b3) x j = 0 := by
  unfold h1Aug
  rw [packed_b1_pad w1 b1 w2 b2 w3 b3 _ _ hj j.isLt rfl]
  have hs : (∑ k : Fin 2, packed w1 b1 w2 b2 w3 b3 ⟨j.val, by omega⟩ ⟨k.val, by omega⟩ * x k) = 0 := by
    refine Finset.sum_eq_zero (fun k _ => ?_)
    rw [packed_w1_pad w1 b1 w2 b2 w3 b3 _ _ (by simp only []; omega) j.isLt k.isLt, zero_mul]
  rw [hs, zero_add]
  exact max_self 0

end layers

section layers23

variable (w1 : Fin 10 → Fin 2 → EReal) (b1 : Fin 10 → EReal) (w2 : Fin 10 → Fin 10 → EReal)
  (b2 : Fin 10 → EReal) (w3 : Fin 10 → EReal) (b3 : EReal)

/-! ## The second layer, unit by unit, over any sixteen activations whose unit 10 is 1 -/

/-- Rows 0–9 of the second layer: the ten weights, then the bias times the constant 1, then zeros. -/
theorem h2Aug_lt (h : Fin 16 → EReal) (h10 : h 10 = 1) (i : Fin 16) (hi : i.val < 10) :
    h2Aug (packed w1 b1 w2 b2 w3 b3) h i = h2 w2 b2 (fun j => h ⟨j.val, by omega⟩) ⟨i.val, hi⟩ := by
  have hsum : (∑ j : Fin 16, packed w1 b1 w2 b2 w3 b3 ⟨16 + i.val, by omega⟩ j * h j)
      = (∑ j : Fin 10, w2 ⟨i.val, hi⟩ j * h ⟨j.val, by omega⟩) + b2 ⟨i.val, hi⟩ := by
    rw [sum_sixteen,
      packed_b2 w1 b1 w2 b2 w3 b3 i 10 hi rfl,
      packed_w2_pad w1 b1 w2 b2 w3 b3 i 11 hi (by decide),
      packed_w2_pad w1 b1 w2 b2 w3 b3 i 12 hi (by decide),
      packed_w2_pad w1 b1 w2 b2 w3 b3 i 13 hi (by decide),
      packed_w2_pad w1 b1 w2 b2 w3 b3 i 14 hi (by decide),
      packed_w2_pad w1 b1 w2 b2 w3 b3 i 15 hi (by decide),
      h10, mul_one, zero_mul, zero_mul, zero_mul, zero_mul, zero_mul,
      add_zero, add_zero, add_zero, add_zero, add_zero]
    refine congrArg (fun s => s + b2 ⟨i.val, hi⟩) ?_
    refine Finset.sum_congr rfl (fun j _ => ?_)
    rw [packed_w2 w1 b1 w2 b2 w3 b3 i ⟨j.val, by omega⟩ hi j.isLt]
  unfold h2Aug h2
  rw [hsum]

/-- Row 10 of the second layer holds a single 1 against the constant unit: its activation is 1. -/
theorem h2Aug_ten (h : Fin 16 → EReal) (h10 : h 10 = 1) (i : Fin 16) (hi : i.val = 10) :
    h2Aug (packed w1 b1 w2 b2 w3 b3) h i = 1 := by
  have hten : (∑ j : Fin 10, packed w1 b1 w2 b2 w3 b3 ⟨16 + i.val, by omega⟩ ⟨j.val, by omega⟩
      * h ⟨j.val, by omega⟩) = 0 := by
    refine Finset.sum_eq_zero (fun j _ => ?_)
    rw [packed_carry_zero w1 b1 w2 b2 w3 b3 i ⟨j.val, by omega⟩ hi (Nat.ne_of_lt j.isLt), zero_mul]
  have hsum : (∑ j : Fin 16, packed w1 b1 w2 b2 w3 b3 ⟨16 + i.val, by omega⟩ j * h j) = 1 := by
    rw [sum_sixteen, hten,
      packed_carry w1 b1 w2 b2 w3 b3 i 10 hi rfl,
      packed_carry_zero w1 b1 w2 b2 w3 b3 i 11 hi (by decide),
      packed_carry_zero w1 b1 w2 b2 w3 b3 i 12 hi (by decide),
      packed_carry_zero w1 b1 w2 b2 w3 b3 i 13 hi (by decide),
      packed_carry_zero w1 b1 w2 b2 w3 b3 i 14 hi (by decide),
      packed_carry_zero w1 b1 w2 b2 w3 b3 i 15 hi (by decide),
      h10, mul_one, zero_mul, zero_mul, zero_mul, zero_mul, zero_mul,
      add_zero, add_zero, add_zero, add_zero, add_zero, zero_add]
  unfold h2Aug
  rw [hsum]
  exact max_eq_left zero_le_one

/-- Rows 11–15 of the second layer are zero: their activation is 0. -/
theorem h2Aug_gt (h : Fin 16 → EReal) (i : Fin 16) (hi : 10 < i.val) :
    h2Aug (packed w1 b1 w2 b2 w3 b3) h i = 0 := by
  have hsum : (∑ j : Fin 16, packed w1 b1 w2 b2 w3 b3 ⟨16 + i.val, by omega⟩ j * h j) = 0 := by
    refine Finset.sum_eq_zero (fun j _ => ?_)
    rw [packed_l2_zero w1 b1 w2 b2 w3 b3 i j hi, zero_mul]
  unfold h2Aug
  rw [hsum]
  exact max_self 0

/-! ## The output unit -/

/-- The output row: the ten weights, then the bias times the constant 1, then zeros. -/
theorem outAug_eq (h : Fin 16 → EReal) (h10 : h 10 = 1) :
    outAug (packed w1 b1 w2 b2 w3 b3) h = out w3 b3 (fun j => h ⟨j.val, by omega⟩) := by
  unfold outAug out
  rw [sum_sixteen,
    packed_b3 w1 b1 w2 b2 w3 b3 32 10 rfl rfl,
    packed_w3_pad w1 b1 w2 b2 w3 b3 32 11 rfl (by decide),
    packed_w3_pad w1 b1 w2 b2 w3 b3 32 12 rfl (by decide),
    packed_w3_pad w1 b1 w2 b2 w3 b3 32 13 rfl (by decide),
    packed_w3_pad w1 b1 w2 b2 w3 b3 32 14 rfl (by decide),
    packed_w3_pad w1 b1 w2 b2 w3 b3 32 15 rfl (by decide),
    h10, mul_one, zero_mul, zero_mul, zero_mul, zero_mul, zero_mul,
    add_zero, add_zero, add_zero, add_zero, add_zero]
  refine congrArg (fun s => s + b3) ?_
  refine Finset.sum_congr rfl (fun j _ => ?_)
  rw [packed_w3 w1 b1 w2 b2 w3 b3 32 ⟨j.val, by omega⟩ rfl j.isLt]

end layers23

/-! ## The whole network -/

/-- The packed form, fed the packed array, is the network. -/
theorem mlpAug_packed (w1 : Fin 10 → Fin 2 → EReal) (b1 : Fin 10 → EReal) (w2 : Fin 10 → Fin 10 → EReal) (b2 : Fin 10 → EReal)
    (w3 : Fin 10 → EReal) (b3 : EReal) (x : Fin 2 → EReal) :
    mlpAug (packed w1 b1 w2 b2 w3 b3) x = mlp w1 b1 w2 b2 w3 b3 x := by
  have h1ten : h1Aug (packed w1 b1 w2 b2 w3 b3) x 10 = 1 := h1Aug_ten w1 b1 w2 b2 w3 b3 x 10 rfl
  have h2ten : h2Aug (packed w1 b1 w2 b2 w3 b3) (h1Aug (packed w1 b1 w2 b2 w3 b3) x) 10 = 1 :=
    h2Aug_ten w1 b1 w2 b2 w3 b3 _ h1ten 10 rfl
  unfold mlpAug mlp
  rw [outAug_eq w1 b1 w2 b2 w3 b3 _ h2ten]
  refine congrArg (out w3 b3) (funext fun i => ?_)
  show h2Aug (packed w1 b1 w2 b2 w3 b3) (h1Aug (packed w1 b1 w2 b2 w3 b3) x) ⟨i.val, by omega⟩
    = h2 w2 b2 (h1 w1 b1 x) i
  rw [h2Aug_lt w1 b1 w2 b2 w3 b3 _ h1ten ⟨i.val, by omega⟩ i.isLt]
  refine congrArg (fun g => h2 w2 b2 g i) (funext fun j => ?_)
  exact h1Aug_lt w1 b1 w2 b2 w3 b3 x ⟨j.val, by omega⟩ j.isLt

end Cert.MlpSpec

end
-- ==== Proof.LibColumnLayout.lean ====
/-
  General reading lemmas for two-dimensional arrays, at an index given by its two coordinates.

  * a matrix product into the zero accumulator, at the extended reals, read at (a, b), is the sum over the
    contracted coordinate of the products of the entries (`matmul_plain_zero_apply`);
  * a column (an m × 1 array) broadcast along the second axis reads, at (a, b), the column's entry a
    (`broadcastTo_column_apply`);
  * the first row cut out of an m × n array reads, at (0, b), the array at (0, b)
    (`extractStridedSlice_firstRow_apply`);
  * a one-row array of N entries recast as m rows of n reads, at (q, l), the entry at position q · n + l
    (`shapeCast_row_tiles_apply`).
-/
import Idealize.ShloMosaic.Lib.StackMember
import Idealize.ShloMosaic.Lib.Pipeline.Value

noncomputable section

open scoped BigOperators

namespace Cert.LibColumnLayout

open Idealize.ShloMosaic Idealize.ShloMosaic.ValueIdx

/-- The plain product of an m × k by a k × n matrix accumulated into the zero array, read at (a, b), is
    Σ_c A(a, c) · B(c, b): the accumulator contributes 0 + ·, and the contraction index is one coordinate. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A column broadcast along the second axis: entry (a, b) of the result is entry (a, 0) of the column. When
    m = 1 the first axis is a unit axis too and its coordinate is 0 = a. -/
theorem broadcastTo_column_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun c => ?_
  match c with
  | ⟨0, _⟩ =>
    show a.val = if m = 1 then 0 else a.val
    split
    · have := a.isLt; omega
    · rfl
  | ⟨1, _⟩ => rfl

/-- The first row of an m × n array, cut out as a 1 × n array: entry (0, b) is the array's entry (0, b). -/
theorem extractStridedSlice_firstRow_apply {α : Type} {m n : Nat} (x : (⟨2, ![m, n]⟩ : Shape).Idx → α)
    (h : (⟨2, ![m, n]⟩ : Shape).Slices ![0, 0] ⟨2, ![1, n]⟩) (hm : 0 < m) (b : Fin n) :
    extractStridedSlice ⟨2, ![1, n]⟩ ![0, 0] x h (ix2 (0 : Fin 1) b) = x (ix2 (⟨0, hm⟩ : Fin m) b) := by
  refine extractStridedSlice_apply ![0, 0] x h (ix2 (0 : Fin 1) b) (ix2 (⟨0, hm⟩ : Fin m) b) fun c => ?_
  match c with
  | ⟨0, _⟩ => rfl
  | ⟨1, _⟩ => show b.val = 0 + b.val; omega

/-- A one-row array of N entries recast as m rows of n entries keeps the row-major order: entry (q, l) of the
    result is the entry at position p = q · n + l of the row. -/
theorem shapeCast_row_tiles_apply {α : Type} {m n N : Nat} (x : (⟨2, ![1, N]⟩ : Shape).Idx → α)
    (h : (⟨2, ![1, N]⟩ : Shape).ShapeCasts ⟨2, ![m, n]⟩) (q : Fin m) (l : Fin n) (p : Fin N)
    (hp : p.val = q.val * n + l.val) :
    shapeCast ⟨2, ![m, n]⟩ x h (ix2 q l) = x (ix2 (0 : Fin 1) p) := by
  refine shapeCast_apply x h (ix2 q l) (ix2 (0 : Fin 1) p) ?_
  rw [Shape.rowMajor_val_two, Shape.rowMajor_val_two]
  show 0 * N + p.val = q.val * n + l.val
  omega

end Cert.LibColumnLayout

end
-- ==== Proof.KernelPayload.lean ====
/-
  One entry of the block the packed program's body stores, at the extended reals.

  The body multiplies the padded first layer (16 × 2) by the 2 × 524288 block of samples, adds the bias column,
  clamps at 0; multiplies the second layer (16 × 16) by that, clamps at 0; multiplies the 8 × 16 last block by
  that; keeps row 0; and lays the 524288 results out as 4096 rows of 128. Entry (q, l) of what it stores is
  therefore the packed network on sample 128 q + l.
-/
import proofs.«159392_g2000409670772848_pallaspilot1_20_20_alg».proof.Proof.Gen.KernelIdeal.Skeleton
import proofs.«159392_g2000409670772848_pallaspilot1_20_20_alg».proof.Proof.MlpSpec
import proofs.«159392_g2000409670772848_pallaspilot1_20_20_alg».proof.Proof.LibColumnLayout

noncomputable section

open scoped BigOperators

namespace Cert.KernelIdeal.Payload

open Idealize.ShloMosaic Idealize.ShloMosaic.ValueIdx Cert.KernelIdeal Cert.KernelIdeal.Gen Cert.MlpSpec
open Cert.LibColumnLayout

/-! ## The three layers as array operations -/

/-- First layer over the whole block: W·X + c (the column c along every sample), clamped at 0. -/
def L1 (w : FVec Ideal S16x2 .f32) (c : FVec Ideal S16x1 .f32) (x : FVec Ideal S2x524288 .f32) :
    FVec Ideal S16x524288 .f32 :=
  maximumf
    (addf (matmul dot_S16x2_S2x524288_S16x524288_1_0_0_1_n_n none w x (constant S16x524288 .f32 0x00000000#32))
      (broadcastTo S16x524288 c broadcasts_S16x1_S16x524288))
    (broadcast S16x524288 (Scalar.ofBits .f32 0x00000000#32))

/-- Second layer over the whole block: W·H, clamped at 0. -/
def L2 (w : FVec Ideal S16x16 .f32) (a : FVec Ideal S16x524288 .f32) : FVec Ideal S16x524288 .f32 :=
  maximumf (matmul dot_S16x16_S16x524288_S16x524288_1_0_0_1_n_n none w a (constant S16x524288 .f32 0x00000000#32))
    (broadcast S16x524288 (Scalar.ofBits .f32 0x00000000#32))

/-- Last block over the whole block: W·H, eight rows of which row 0 is the output unit. -/
def L3 (w : FVec Ideal S8x16 .f32) (a : FVec Ideal S16x524288 .f32) : FVec Ideal S8x524288 .f32 :=
  matmul dot_S8x16_S16x524288_S8x524288_1_0_0_1_n_n none w a (constant S8x524288 .f32 0x00000000#32)

/-- The stored value is the three layers, row 0 of the last, recast as 4096 rows of 128. -/
theorem k0_pay1_eq (v0 : Vec Ideal S16x2 .f32) (v2 : Vec Ideal S16x1 .f32) (v4 : Vec Ideal S16x16 .f32)
    (v6 : Vec Ideal S8x16 .f32) (v8 : Vec Ideal S2x524288 .f32) :
    k0_pay1 (F := Ideal) v0 v2 v4 v6 v8
      = shapeCast S4096x128
          (extractStridedSlice S1x524288 ![0, 0]
            (L3 (shapeCast S8x16 v6 shapeCasts_S8x16_S8x16)
              (L2 (shapeCast S16x16 v4 shapeCasts_S16x16_S16x16)
                (L1 (shapeCast S16x2 v0 shapeCasts_S16x2_S16x2) (shapeCast S16x1 v2 shapeCasts_S16x1_S16x1) v8)))
            slices_S8x524288_o0_0_S1x524288)
          shapeCasts_S1x524288_S4096x128 := rfl

/-! ## Each layer at one entry -/

/-- Clamping against the splat of the zero word is `max · 0`. -/
theorem relu_apply {S : Shape} (a : FVec Ideal S .f32) (i : S.Idx) :
    maximumf a (broadcast S (Scalar.ofBits (F := Ideal) .f32 0x00000000#32)) i = max (a i) 0 := by
  show max (a i) (Ideal.ofBits .f32 0x00000000#32) = _
  rw [Ideal.ofBits_zero_f32]

/-- Entry (j, b) of the first layer: unit j on sample b. -/
theorem L1_apply (w : FVec Ideal S16x2 .f32) (c : FVec Ideal S16x1 .f32) (x : FVec Ideal S2x524288 .f32)
    (j : Fin 16) (b : Fin 524288) :
    L1 w c x (ix2 j b) = max ((∑ k : Fin 2, w (ix2 j k) * x (ix2 k b)) + c (ix2 j (0 : Fin 1))) 0 := by
  refine (relu_apply _ _).trans ?_
  refine congrArg (fun t => max t 0) ?_
  refine (addf_apply _ _ _).trans ?_
  refine congrArg₂ (· + ·) ?_ ?_
  · exact matmul_plain_zero_apply none w x j b
  · exact broadcastTo_column_apply c _ j b

/-- Entry (i, b) of the second layer: unit i on the first layer's column b. -/
theorem L2_apply (w : FVec Ideal S16x16 .f32) (a : FVec Ideal S16x524288 .f32) (i : Fin 16) (b : Fin 524288) :
    L2 w a (ix2 i b) = max (∑ j : Fin 16, w (ix2 i j) * a (ix2 j b)) 0 := by
  refine (relu_apply _ _).trans ?_
  refine congrArg (fun t => max t 0) ?_
  exact matmul_plain_zero_apply none w a i b

/-- Entry (i, b) of the last product. -/
theorem L3_apply (w : FVec Ideal S8x16 .f32) (a : FVec Ideal S16x524288 .f32) (i : Fin 8) (b : Fin 524288) :
    L3 w a (ix2 i b) = ∑ j : Fin 16, w (ix2 i j) * a (ix2 j b) :=
  matmul_plain_zero_apply none w a i b

/-! ## The stored entry -/

/-- Entry (q, l) of the stored 4096 × 128 block is the packed network's value on sample 128 q + l of the input
    block, when the four loaded pieces are the corresponding cells of one 40 × 16 array A. -/
theorem pay_apply (v0 : Vec Ideal S16x2 .f32) (v2 : Vec Ideal S16x1 .f32) (v4 : Vec Ideal S16x16 .f32)
    (v6 : Vec Ideal S8x16 .f32) (v8 : Vec Ideal S2x524288 .f32) (A : Fin 40 → Fin 16 → EReal)
    (h0 : ∀ (j : Fin 16) (k : Fin 2), v0 (ix2 j k) = A ⟨j.val, by omega⟩ ⟨k.val, by omega⟩)
    (h2 : ∀ j : Fin 16, v2 (ix2 j (0 : Fin 1)) = A ⟨j.val, by omega⟩ 2)
    (h4 : ∀ i j : Fin 16, v4 (ix2 i j) = A ⟨16 + i.val, by omega⟩ j)
    (h6 : ∀ (i : Fin 8) (j : Fin 16), v6 (ix2 i j) = A ⟨32 + i.val, by omega⟩ j)
    (q : Fin 4096) (l : Fin 128) :
    k0_pay1 (F := Ideal) v0 v2 v4 v6 v8 (ix2 q l)
      = mlpAug A (fun k => v8 (ix2 k ⟨128 * q.val + l.val, by omega⟩)) := by
  rw [k0_pay1_eq, shapeCast_self v0, shapeCast_self v2, shapeCast_self v4, shapeCast_self v6]
  -- the recast and the cut: entry (q, l) is row 0, column 128 q + l of the last product
  refine (shapeCast_row_tiles_apply _ _ q l ⟨128 * q.val + l.val, by omega⟩ (by show 128 * q.val + l.val = q.val * 128 + l.val; omega)).trans ?_
  refine (extractStridedSlice_firstRow_apply _ _ (by decide) _).trans ?_
  -- the output unit
  rw [L3_apply]
  unfold mlpAug outAug
  refine Finset.sum_congr rfl fun i _ => ?_
  refine congrArg₂ (· * ·) (h6 _ i) ?_
  -- the second layer
  rw [L2_apply]
  unfold h2Aug
  refine congrArg (fun t => max t 0) (Finset.sum_congr rfl fun j _ => ?_)
  refine congrArg₂ (· * ·) (h4 i j) ?_
  -- the first layer
  rw [L1_apply]
  unfold h1Aug
  refine congrArg (fun t => max t 0) (congrArg₂ (· + ·) (Finset.sum_congr rfl fun k _ => ?_) (h2 j))
  exact congrArg (· * _) (h0 j k)

end Cert.KernelIdeal.Payload

end
-- ==== Proof.KernelValue.lean ====
/-
  What the packed-parameter kernel's program leaves in its result array, at the exact-real instance: row b of the
  4194304 × 1 result holds the network's value on sample b (`Cert.MlpSpec.G`).

  The launch runs the body at 8 grid points. Point t reads columns 524288 t … of the input (window 0's block t), the
  whole packed array (window 1's only block) and writes rows 4096 t … of the 32768 × 128 output (window 2's block t).
  Entry (q, l) of the block the body stores is the packed network's value on sample 128 q + l of the input block,
  that is on sample 128 (4096 t + q) + l of the input: the same function of the ARRAY index (4096 t + q, l) at every
  point, so the blocks are restrictions of one whole-array function, and since the eight blocks tile the output, the
  output ends holding that function. The reshape after the region reads entry (R, l) of it at row 128 R + l.
-/
import proofs.«159392_g2000409670772848_pallaspilot1_20_20_alg».proof.Proof.KernelIdealFrame
import proofs.«159392_g2000409670772848_pallaspilot1_20_20_alg».proof.Proof.MlpSpec
import proofs.«159392_g2000409670772848_pallaspilot1_20_20_alg».proof.Proof.MlpAlgebra
import proofs.«159392_g2000409670772848_pallaspilot1_20_20_alg».proof.Proof.KernelPayload
import Idealize.ShloMosaic.Lib.Pipeline.Value
import Idealize.ShloMosaic.Lib.ValueIdx
import Idealize.ShloMosaic.Lib.StableHlo.Run

set_option maxRecDepth 16384

noncomputable section

namespace Cert.KernelIdeal.KVal

open Cert.KernelIdeal Cert.KernelIdeal.Gen Cert.KernelIdeal.Frm Idealize.ShloMosaic Idealize.ShloMosaic.TcCoe Idealize.SL.Sem
open Idealize.ShloMosaic.ValueIdx Cert.MlpSpec
open Idealize.ShloMosaic.Pipeline (Dat)

variable (m : (ℓ : Loc nD τ sig) → Buf (Elt Ideal) ℓ) (ρ : Dev nD → PrngReg)

/-! ## The index maps, decided once over the grid -/

/-- Window 0 walks the input's column blocks, window 1 stays on its one block, window 2 walks the output's row blocks. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 8 := lt_of_lt_of_eq t.isLt N_0

/-! ## The windows' blocks read at an index -/

/-- Entry y of the input's block at point t is the input at column 524288 t + y₁. -/
theorem blk0_read (c : Dev nD) (t : Fin cfg0.N) (y : S2x524288.Idx) (i : S2x4194304.Idx)
    (h0 : (i 0).val = (y 0).val) (h1 : (i 1).val = 524288 * t.val + (y 1).val) :
    iblk m c 0 t y = V m c main_arg0 i := by
  obtain ⟨e0, e1, -, -, -, -⟩ := idx_facts t
  show V m c main_arg0 (((cfg0.win 0).blk t).view.emb y) = V m c main_arg0 i
  refine congrArg _ (funext fun a => Fin.ext ?_)
  match a with
  | ⟨0, _⟩ => show win0_0.index t (0 : Fin 2) * 2 + 1 * (y 0).val = (i 0).val; omega
  | ⟨1, _⟩ => show win0_0.index t (1 : Fin 2) * 524288 + 1 * (y 1).val = (i 1).val; omega

/-- The packed array's one block is the whole array. -/
theorem blk1_read (c : Dev nD) (t : Fin cfg0.N) (y : S40x16.Idx) (i : S40x16.Idx)
    (h0 : (i 0).val = (y 0).val) (h1 : (i 1).val = (y 1).val) :
    iblk m c 1 t y = V m c main_v20 i := by
  obtain ⟨-, -, e0, e1, -, -⟩ := idx_facts t
  show V m c main_v20 (((cfg0.win 1).blk t).view.emb y) = V m c main_v20 i
  refine congrArg _ (funext fun a => Fin.ext ?_)
  match a with
  | ⟨0, _⟩ => show win0_1.index t (0 : Fin 2) * 40 + 1 * (y 0).val = (i 0).val; omega
  | ⟨1, _⟩ => show win0_1.index t (1 : Fin 2) * 16 + 1 * (y 1).val = (i 1).val; omega

/-! ## The whole-array function the output ends holding -/

/-- Entry (R, l) of the 32768 × 128 output belongs to sample 128 R + l. -/
def sampleOf (i : S32768x128.Idx) : Fin 4194304 :=
  ⟨128 * (i 0).val + (i 1).val, by have h0 := idx2_lt0 i; have h1 := idx2_lt1 i; omega⟩

/-- The six parameter arrays as launched, as coordinate functions, applied to a sample. -/
def net (c : Dev nD) (x : Fin 2 → EReal) : EReal :=
  mlp (cW1 (m ((c.tc : Thread nD τ).loc main_arg1))) (cB (m ((c.tc : Thread nD τ).loc main_arg2))) (cW2 (m ((c.tc : Thread nD τ).loc main_arg3))) (cB (m ((c.tc : Thread nD τ).loc main_arg4)))
    (cW3 (m ((c.tc : Thread nD τ).loc main_arg5))) (cB3 (m ((c.tc : Thread nD τ).loc main_arg6))) x

/-- The output array after the run: entry (R, l) is the network's value on sample 128 R + l. -/
def Gout (c : Dev nD) : S32768x128.Idx → EReal := fun i => net m c (cX (m ((c.tc : Thread nD τ).loc main_arg0)) (sampleOf i))

/-- The packed array as the region finds it, as a coordinate function. -/
def Apk (c : Dev nD) : Fin 40 → Fin 16 → EReal := fun r k => (V m c main_v20 : S40x16.Idx → EReal) (ix2 r k)

/-! ## What the packed array holds, proved in its own module: a hypothesis here -/

variable
  (hpacked : ∀ (c : Dev nD) (r : Fin 40) (k : Fin 16), Apk m c r k
      = packed (cW1 (m ((c.tc : Thread nD τ).loc main_arg1))) (cB (m ((c.tc : Thread nD τ).loc main_arg2))) (cW2 (m ((c.tc : Thread nD τ).loc main_arg3))) (cB (m ((c.tc : Thread nD τ).loc main_arg4)))
          (cW3 (m ((c.tc : Thread nD τ).loc main_arg5))) (cB3 (m ((c.tc : Thread nD τ).loc main_arg6))) r k)

/-! ## What a point writes back -/

theorem hz : (![0, 0] : Fin 2 → Nat) = fun _ => 0 := funext fun a => by fin_cases a <;> rfl

include hpacked in
/-- What point t writes back is block t of `Gout`. -/
theorem flushed_eq (c : Dev nD) (t : Fin cfg0.N) :
    (dats m 0 c).flushed 2 t = ((cfg0.win 2).blk t).view.read (Elt Ideal) (Gout m c) := by
  show (cfg0.win 2).cut (grid0.coords t) ((dats m 0 c).after 2 t) = _
  rw [after0_2]
  unfold out0_2
  rw [View.canon_unit_zero hz]
  funext j
  obtain ⟨q, l, rfl⟩ : ∃ (q : Fin 4096) (l : Fin 128), j = ix2 q l := ⟨j 0, j 1, eq_ix2 j⟩
  show k0_pay1 (F := Ideal) (View.ld (iblk m c 1 t) rW1) (View.ld (iblk m c 1 t) rB1) (View.ld (iblk m c 1 t) rW2) (View.ld (iblk m c 1 t) rW3)
      (View.ld (iblk m c 0 t) rX) (ix2 q l) = Gout m c (((cfg0.win 2).blk t).view.emb (ix2 q l))
  refine (Cert.KernelIdeal.Payload.pay_apply _ _ _ _ _ (Apk m c) ?_ ?_ ?_ ?_ q l).trans ?_
  · intro j k
    exact blk1_read m c t (rW1.emb (ix2 j k)) (ix2 ⟨j.val, by omega⟩ ⟨k.val, by omega⟩)
      (by show j.val = 0 + 1 * j.val; omega) (by show k.val = 0 + 1 * k.val; omega)
  · intro j
    exact blk1_read m c t (rB1.emb (ix2 j (0 : Fin 1))) (ix2 ⟨j.val, by omega⟩ (2 : Fin 16))
      (by show j.val = 0 + 1 * j.val; omega) (by show 2 = 2 + 1 * 0; omega)
  · intro i j
    exact blk1_read m c t (rW2.emb (ix2 i j)) (ix2 ⟨16 + i.val, by omega⟩ j)
      (by show 16 + i.val = 16 + 1 * i.val; omega) (by show j.val = 0 + 1 * j.val; omega)
  · intro i j
    exact blk1_read m c t (rW3.emb (ix2 i j)) (ix2 ⟨32 + i.val, by omega⟩ j)
      (by show 32 + i.val = 32 + 1 * i.val; omega) (by show j.val = 0 + 1 * j.val; omega)
  have hA : Apk m c = packed (cW1 (m ((c.tc : Thread nD τ).loc main_arg1))) (cB (m ((c.tc : Thread nD τ).loc main_arg2))) (cW2 (m ((c.tc : Thread nD τ).loc main_arg3))) (cB (m ((c.tc : Thread nD τ).loc main_arg4)))
      (cW3 (m ((c.tc : Thread nD τ).loc main_arg5))) (cB3 (m ((c.tc : Thread nD τ).loc main_arg6))) := funext fun r => funext fun k => hpacked c r k
  rw [hA, mlpAug_packed]
  unfold Gout net
  refine congrArg _ (funext fun k => ?_)
  obtain ⟨-, -, -, -, e0, e1⟩ := idx_facts t
  have ht := t_lt t
  refine (blk0_read m c t (rX.emb (ix2 k ⟨128 * q.val + l.val, by omega⟩))
    (ix2 k (sampleOf (((cfg0.win 2).blk t).view.emb (ix2 q l)))) (by show k.val = 0 + 1 * k.val; omega) ?_).trans
    (congrFun (V_main_arg0 m c) _)
  show 128 * (win0_2.index t (0 : Fin 2) * 4096 + 1 * q.val) + (win0_2.index t (1 : Fin 2) * 128 + 1 * l.val)
    = 524288 * t.val + (0 + 1 * (128 * q.val + l.val))
  omega

/-! ## The blocks tile the output -/

/-- An index of the output is in point t's block iff each coordinate is in the block's range on its axis. -/
theorem mem_blk (t : Fin cfg0.N) (i : S32768x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v21).slice (win0_2.rect t)).set ↔ _
  rw [View.set_slice_whole, Rect.mem_set_unit]
  exact Iff.rfl

/-- Row R of the output lies in the block of point R / 4096, which writes back. -/
theorem cover (i : S32768x128.Idx) : ∃ t : Fin cfg0.N, (cfg0.win 2).flush t = true ∧ i ∈ ((cfg0.win 2).blk t).view.set := by
  have h0 := idx2_lt0 i
  have h1 := idx2_lt1 i
  have hN : cfg0.N = 8 := N_0
  obtain ⟨t, ht⟩ : ∃ t : Fin cfg0.N, t.val = (i 0).val / 4096 := ⟨⟨(i 0).val / 4096, by rw [hN]; omega⟩, rfl⟩
  refine ⟨t, flush0_2 t, ?_⟩
  rw [mem_blk]
  obtain ⟨-, -, -, -, e0, e1⟩ := idx_facts t
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 128 ≤ (i 1).val ∧ (i 1).val < win0_2.index t (1 : Fin 2) * 128 + 128; omega

include hpacked in
/-- The output array after the run is `Gout`. -/
theorem final (c : Dev nD) : (dats m 0 c).arrAt 2 cfg0.N = Gout m c :=
  (dats m 0 c).arrAt_eq_of_cover 2 (Gout m c) (fun t _ => flushed_eq m hpacked c t) cover

/-! ## The reshape after the region -/

include hpacked in
/-- Row b of the result is entry (b / 128, b % 128) of the output array: the network's value on sample b. -/
theorem tail_eq (c : Dev nD) :
    Pipeline.afterTail₀ cfgs (dats m) 0 (V0 m) [hostOps1] c main_v22 = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v22) = _
  after_results
  have hw : Pipeline.withArrays spec0 c (V0 m c) (fun w => (dats m 0 c).arrAt w cfg0.N) (Proc.devRef .tc main_v21) = Gout m c :=
    (Pipeline.withArrays_arr spec0 launch0.win.arr_inj c (V0 m c) (fun w => (dats m 0 c).arrAt w cfg0.N) 2).trans
      (final m hpacked c)
  funext i
  have hi0 := idx2_lt0 i
  have hi1 := idx2_lt1 i
  show shapeCast S4194304x1 (Pipeline.withArrays spec0 c (V0 m c) (fun w => (dats m 0 c).arrAt w cfg0.N) (Proc.devRef .tc main_v21))
    shapeCasts_S32768x128_S4194304x1 i = _
  rw [hw]
  refine (shapeCast_apply (Gout m c) shapeCasts_S32768x128_S4194304x1 i
    (ix2 (⟨(i 0).val / 128, by omega⟩ : Fin 32768) (⟨(i 0).val % 128, by omega⟩ : Fin 128)) ?_).trans ?_
  · rw [Shape.rowMajor_val_two, Shape.rowMajor_val_two]
    show (i 0).val / 128 * 128 + (i 0).val % 128 = (i 0).val * 1 + (i 1).val
    omega
  · show net m c (cX (m ((c.tc : Thread nD τ).loc main_arg0)) (sampleOf (ix2 (⟨(i 0).val / 128, by omega⟩ : Fin 32768) (⟨(i 0).val % 128, by omega⟩ : Fin 128))))
      = net m c (cX (m ((c.tc : Thread nD τ).loc main_arg0)) (i 0))
    refine congrArg _ (congrArg _ (Fin.ext ?_))
    show 128 * ((i 0).val / 128) + (i 0).val % 128 = (i 0).val
    omega

/-! ## The run, read -/

include hpacked in
/-- Every weakly fair execution of @main terminates with the result array at `G` of the arguments and the arguments unchanged. -/
theorem run : θ_run defs (onTc (τ := τ) (main (F := Ideal))) ⟨m, fun _ => 0, ρ⟩ (fun r => ∀ c : Dev nD,
      r.2.mem ((c.tc : Thread nD τ).loc main_v22) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).2 main_v22 (Pipeline.mem_restRefs_of main_v22 (by decide) (by decide))).trans (tail_eq m hpacked c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.KernelIdeal.KVal

end
-- ==== Proof.LibScatterSet.lean ====
/-
  Reading a `Host.scatter` whose body returns the update (a "set") at one index of its result.

  The scatter is a left fold over the update indices in row-major order; each step overwrites the
  cell its update index lands at. When every update index lands inside the operand, at the cell
  `land n`, and `land` is injective, the result holds `upd n` at `land n` (`scatter_set_hit`)
  and the operand's own value at every cell no update lands at (`scatter_set_miss`).
-/
import Idealize.ShloMosaic.PureOps.ShapeOps

namespace Cert.LibScatterSet

open Idealize.ShloMosaic

variable {α : Type} {s si u : Shape} {w : Nat}

/-- The fold of overwrites: update index `n` writes `upd n` at cell `land n`. -/
def setFold (land : u.Idx → s.Idx) (upd : u.Idx → α) (l : List (Fin u.numel)) (x : s.Idx → α) : s.Idx → α :=
  l.foldl (fun r n => fun i' => if i' = land (u.rowMajor.symm n) then upd (u.rowMajor.symm n) else r i') x

/-- A cell no update index of the list lands at keeps its value. -/
theorem setFold_miss (land : u.Idx → s.Idx) (upd : u.Idx → α) (i : s.Idx) :
    ∀ (l : List (Fin u.numel)) (x : s.Idx → α), (∀ n ∈ l, land (u.rowMajor.symm n) ≠ i) → setFold land upd l x i = x i
  | [], _, _ => rfl
  | a :: t, x, h => by
    have ht : ∀ n ∈ t, land (u.rowMajor.symm n) ≠ i := fun n hn => h n (List.mem_cons_of_mem _ hn)
    have ha : i ≠ land (u.rowMajor.symm a) := fun e => h a List.mem_cons_self e.symm
    show setFold land upd t _ i = x i
    rw [setFold_miss land upd i t _ ht]
    exact if_neg ha

/-- The cell an update index of a duplicate-free list lands at holds that update, when no two update
    indices land at one cell. -/
theorem setFold_hit (land : u.Idx → s.Idx) (hinj : Function.Injective land) (upd : u.Idx → α) (n : Fin u.numel) :
    ∀ (l : List (Fin u.numel)) (x : s.Idx → α), l.Nodup → n ∈ l →
      setFold land upd l x (land (u.rowMajor.symm n)) = upd (u.rowMajor.symm n)
  | [], _, _, h => absurd h List.not_mem_nil
  | a :: t, x, hnd, h => by
    have hnd' := List.nodup_cons.mp hnd
    show setFold land upd t _ (land (u.rowMajor.symm n)) = upd (u.rowMajor.symm n)
    rcases List.mem_cons.mp h with rfl | hm
    · have hmiss : ∀ k ∈ t, land (u.rowMajor.symm k) ≠ land (u.rowMajor.symm n) := fun k hk e => by
        have hkn : k = n := u.rowMajor.symm.injective (hinj e)
        exact hnd'.1 (hkn ▸ hk)
      rw [setFold_miss land upd _ t _ hmiss]
      exact if_pos rfl
    · exact setFold_hit land hinj upd n t _ hnd'.2 hm

/-- A scatter whose body returns the update, every update index landing inside the operand at `land n`,
    is the fold of overwrites. -/
theorem scatter_eq_setFold (d : ScatterDims s si u) (x : s.Idx → α) (idx : IVec si w) (upd : u.Idx → α)
    (land : u.Idx → s.Idx) (hland : ∀ n, d.resultIdx? n idx = some (land n)) :
    Host.scatter d (fun _ b => b) x idx upd = setFold land upd (List.finRange u.numel) x := by
  unfold Host.scatter setFold
  congr 1
  funext r n
  rw [hland]

/-- The result holds the operand's value at a cell no update index lands at. -/
theorem scatter_set_miss (d : ScatterDims s si u) (x : s.Idx → α) (idx : IVec si w) (upd : u.Idx → α)
    (land : u.Idx → s.Idx) (hland : ∀ n, d.resultIdx? n idx = some (land n)) (i : s.Idx) (hi : ∀ n, land n ≠ i) :
    Host.scatter d (fun _ b => b) x idx upd i = x i := by
  rw [scatter_eq_setFold d x idx upd land hland]
  exact setFold_miss land upd i _ x fun n _ => hi _

/-- The result holds update `n` at the cell it lands at, when no two update indices land at one cell. -/
theorem scatter_set_hit (d : ScatterDims s si u) (x : s.Idx → α) (idx : IVec si w) (upd : u.Idx → α)
    (land : u.Idx → s.Idx) (hland : ∀ n, d.resultIdx? n idx = some (land n)) (hinj : Function.Injective land) (n : u.Idx) :
    Host.scatter d (fun _ b => b) x idx upd (land n) = upd n := by
  rw [scatter_eq_setFold d x idx upd land hland]
  have := setFold_hit land hinj upd (u.rowMajor n) (List.finRange u.numel) x (List.nodup_finRange _) (List.mem_finRange _)
  rwa [Equiv.symm_apply_apply] at this

end Cert.LibScatterSet
-- ==== Proof.KernelPacked.lean ====
/-
  What the packed 40 × 16 parameter array holds when the kernel's region starts.

  Before the region the program builds the array from the six parameter arrays by host operations: four
  pads, broadcasts of constants, six concatenations and one scatter that plants a 1 at cell (0, 10) of a
  row of zeros. `run_eq` computes what those operations leave in the array's buffer as one composed term
  (`t20`, built from one definition per intermediate array); the `t…_apply` lemmas read each intermediate
  array at an index, outermost operation first; `packed_apply` concludes that cell (r, k) of the array is
  `packed … r k` of the specification.
-/
import proofs.«159392_g2000409670772848_pallaspilot1_20_20_alg».proof.Proof.Gen.KernelIdeal.Launch
import proofs.«159392_g2000409670772848_pallaspilot1_20_20_alg».proof.Proof.MlpSpec
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal.Laws
import Idealize.ShloMosaic.Lib.IdealHost
import proofs.«159392_g2000409670772848_pallaspilot1_20_20_alg».proof.Proof.LibScatterSet

noncomputable section

namespace Cert.KernelIdeal.Packed

open Idealize.ShloMosaic Idealize.ShloMosaic.ValueIdx Idealize.SL.Sem Cert.KernelIdeal Cert.KernelIdeal.Gen Cert.MlpSpec
open Idealize.ShloMosaic.TcCoe

/-! ## The host operations' values, one definition per intermediate array -/

/-- The padding value of the four pads: the integer 0 converted to a float. -/
def zpad : S_.Idx → EReal := sitofp (F := Ideal) .f32 (constantI S_ 32 0#32)
/-- The scalar constant 1. -/
def one0 : S_.Idx → EReal := constant (F := Ideal) S_ .f32 0x3F800000#32
/-- The scalar constant 0. -/
def zero0 : S_.Idx → EReal := constant (F := Ideal) S_ .f32 0x00000000#32

def t0 (W1 : S10x2.Idx → EReal) : S16x2.Idx → EReal :=
  pad S16x2 ![0, 0] ![6, 0] ![0, 0] W1 zpad Facts₀.pads_S10x2_S16x2_060_000 Facts₀.h_S_
def t1 : S1.Idx → EReal := broadcastInDim S1 ![] Facts₀.bcast_S_S1 one0
def t2 (B1 : S10.Idx → EReal) : S11.Idx → EReal :=
  concatenate S11 0 [⟨S10, B1⟩, ⟨S1, t1⟩] Facts₀.concatenates_S10_S1_S11_d0
def t3 (B1 : S10.Idx → EReal) : S16.Idx → EReal :=
  pad S16 ![0] ![5] ![0] (t2 B1) zpad Facts₀.pads_S11_S16_050 Facts₀.h_S_
def t4 (B1 : S10.Idx → EReal) : S16x1.Idx → EReal := broadcastInDim S16x1 ![0] Facts₀.bcast_S16_S16x1_0 (t3 B1)
def t5 : S16x13.Idx → EReal := broadcastInDim S16x13 ![] Facts₀.bcast_S_S16x13 zero0
def t6 (W1 : S10x2.Idx → EReal) (B1 : S10.Idx → EReal) : S16x16.Idx → EReal :=
  concatenate S16x16 1 [⟨S16x2, t0 W1⟩, ⟨S16x1, t4 B1⟩, ⟨S16x13, t5⟩] Facts₀.concatenates_S16x2_S16x1_S16x13_S16x16_d1
def t7 : S1x16.Idx → EReal := broadcastInDim S1x16 ![] Facts₀.bcast_S_S1x16 zero0
def t8 : IVec S1 32 := broadcastInDim S1 ![] Facts₀.bcast_S_S1 (constantI S_ 32 0#32)
def t9 : IVec S1 32 := broadcastInDim S1 ![] Facts₀.bcast_S_S1 (constantI S_ 32 10#32)
def t10 : IVec S2 32 := concatenate S2 0 [⟨S1, t8⟩, ⟨S1, t9⟩] Facts₀.concatenates_S1_S1_S2_d0
def t11 : S1x16.Idx → EReal := Host.scatter scatter_S1x16_S2_S__n_01_01_0 (fun _ b => b) t7 t10 one0
def t12 (B2 : S10.Idx → EReal) : S10x1.Idx → EReal := broadcastInDim S10x1 ![0] Facts₀.bcast_S10_S10x1_0 B2
def t13 (W2 : S10x10.Idx → EReal) (B2 : S10.Idx → EReal) : S10x11.Idx → EReal :=
  concatenate S10x11 1 [⟨S10x10, W2⟩, ⟨S10x1, t12 B2⟩] Facts₀.concatenates_S10x10_S10x1_S10x11_d1
def t14 (W2 : S10x10.Idx → EReal) (B2 : S10.Idx → EReal) : S10x16.Idx → EReal :=
  pad S10x16 ![0, 0] ![0, 5] ![0, 0] (t13 W2 B2) zpad Facts₀.pads_S10x11_S10x16_000_050 Facts₀.h_S_
def t15 : S5x16.Idx → EReal := broadcastInDim S5x16 ![] Facts₀.bcast_S_S5x16 zero0
def t16 (W2 : S10x10.Idx → EReal) (B2 : S10.Idx → EReal) : S16x16.Idx → EReal :=
  concatenate S16x16 0 [⟨S10x16, t14 W2 B2⟩, ⟨S1x16, t11⟩, ⟨S5x16, t15⟩] Facts₀.concatenates_S10x16_S1x16_S5x16_S16x16_d0
def t17 (B3 : S1.Idx → EReal) : S1x1.Idx → EReal := broadcastInDim S1x1 ![0] Facts₀.bcast_S1_S1x1_0 B3
def t18 (W3 : S1x10.Idx → EReal) (B3 : S1.Idx → EReal) : S1x11.Idx → EReal :=
  concatenate S1x11 1 [⟨S1x10, W3⟩, ⟨S1x1, t17 B3⟩] Facts₀.concatenates_S1x10_S1x1_S1x11_d1
def t19 (W3 : S1x10.Idx → EReal) (B3 : S1.Idx → EReal) : S8x16.Idx → EReal :=
  pad S8x16 ![0, 0] ![7, 5] ![0, 0] (t18 W3 B3) zpad Facts₀.pads_S1x11_S8x16_070_050 Facts₀.h_S_
def t20 (W1 : S10x2.Idx → EReal) (B1 : S10.Idx → EReal) (W2 : S10x10.Idx → EReal) (B2 : S10.Idx → EReal)
    (W3 : S1x10.Idx → EReal) (B3 : S1.Idx → EReal) : S40x16.Idx → EReal :=
  concatenate S40x16 0 [⟨S16x16, t6 W1 B1⟩, ⟨S16x16, t16 W2 B2⟩, ⟨S8x16, t19 W3 B3⟩] Facts₀.concatenates_S16x16_S16x16_S8x16_S40x16_d0

/-! ## The constants -/

theorem zpad_apply (i : S_.Idx) : zpad i = 0 := by
  show (Scalar.sitofp .f32 0#32 : Ideal .f32) = 0
  exact sitofp_zero

theorem one0_apply (i : S_.Idx) : one0 i = 1 := by
  show Ideal.ofBits .f32 0x3F800000#32 = 1
  exact Ideal.ofBits_one_f32

theorem zero0_apply (i : S_.Idx) : zero0 i = 0 := by
  show Ideal.ofBits .f32 0x00000000#32 = 0
  exact Ideal.ofBits_zero_f32

/-! ## The top block: the first layer's weights, its bias column with the planted 1, and zeros -/

/-- The first layer's weights padded from ten to sixteen rows. -/
theorem t0_apply (W1 : S10x2.Idx → EReal) (r : Fin 16) (k : Fin 2) :
    t0 W1 (ix2 r k) = if h : r.val < 10 then W1 (ix2 ⟨r.val, h⟩ k) else 0 := by
  unfold t0
  by_cases h : r.val < 10
  · rw [dif_pos h]
    exact pad_apply_of_inside _ _ _ _ _ _ _ (ix2 r k) (ix2 ⟨r.val, h⟩ k)
      (fun a => match a with | ⟨0, _⟩ => by show r.val = 0 + r.val * (0 + 1); omega
                             | ⟨1, _⟩ => by show k.val = 0 + k.val * (0 + 1); omega)
  · rw [dif_neg h]
    refine (pad_apply_of_not_inside _ _ _ _ _ _ _ (ix2 r k) (0 : Fin 2) ?_).trans (zpad_apply _)
    show ¬(0 ≤ r.val ∧ (r.val - 0) % (0 + 1) = 0 ∧ (r.val - 0) / (0 + 1) < 10)
    omega

theorem t1_apply (i : S1.Idx) : t1 i = 1 := by
  unfold t1
  exact (broadcastInDim_scalar_apply _ _ _).trans (one0_apply _)

/-- The first bias with a 1 appended. -/
theorem t2_apply (B1 : S10.Idx → EReal) (q : Fin 11) :
    t2 B1 (ix1 q) = if h : q.val < 10 then B1 (ix1 ⟨q.val, h⟩) else 1 := by
  unfold t2
  by_cases h : q.val < 10
  · rw [dif_pos h]
    exact concatenate_pair_apply_left (t := S11) (s₁ := S10) (s₂ := S1) _ _ _ _ (ix1 q) rfl (ix1 ⟨q.val, h⟩)
      (fun b => match b with | ⟨0, _⟩ => rfl)
  · rw [dif_neg h]
    refine (concatenate_pair_apply_right (t := S11) (s₁ := S10) (s₂ := S1) _ _ _ _ (ix1 q) rfl rfl (ix1 (0 : Fin 1))
      (fun b => match b with | ⟨0, _⟩ => fun hb => absurd rfl hb) ?_).trans (t1_apply _)
    show 0 + 10 = q.val
    omega

/-- The bias column: the first bias, then the planted 1 in row 10, then zeros. -/
theorem t3_apply (B1 : S10.Idx → EReal) (r : Fin 16) :
    t3 B1 (ix1 r) = if h : r.val < 10 then B1 (ix1 ⟨r.val, h⟩) else if r.val = 10 then 1 else 0 := by
  unfold t3
  by_cases h : r.val < 11
  · refine (pad_apply_of_inside _ _ _ _ _ _ _ (ix1 r) (ix1 ⟨r.val, h⟩)
      (fun a => match a with | ⟨0, _⟩ => by show r.val = 0 + r.val * (0 + 1); omega)).trans ?_
    rw [t2_apply]
    by_cases h10 : r.val < 10
    · rw [dif_pos h10, dif_pos h10]
    · rw [dif_neg h10, dif_neg h10, if_pos (by omega)]
  · rw [dif_neg (by omega), if_neg (by omega)]
    refine (pad_apply_of_not_inside _ _ _ _ _ _ _ (ix1 r) (0 : Fin 1) ?_).trans (zpad_apply _)
    show ¬(0 ≤ r.val ∧ (r.val - 0) % (0 + 1) = 0 ∧ (r.val - 0) / (0 + 1) < 11)
    omega

theorem t4_apply (B1 : S10.Idx → EReal) (r : Fin 16) (z : Fin 1) : t4 B1 (ix2 r z) = t3 B1 (ix1 r) := by
  unfold t4
  exact broadcastInDim_apply _ _ _ (ix2 r z) (ix1 r) (fun a => match a with | ⟨0, _⟩ => rfl)

theorem t5_apply (i : S16x13.Idx) : t5 i = 0 := by
  unfold t5
  exact (broadcastInDim_scalar_apply _ _ _).trans (zero0_apply _)

/-- The top 16 × 16 block, cell by cell. -/
theorem t6_apply (W1 : S10x2.Idx → EReal) (B1 : S10.Idx → EReal) (r : Fin 16) (k : Fin 16) :
    t6 W1 B1 (ix2 r k) =
      if hk : k.val < 2 then (if h : r.val < 10 then W1 (ix2 ⟨r.val, h⟩ ⟨k.val, hk⟩) else 0)
      else if k.val = 2 then (if h : r.val < 10 then B1 (ix1 ⟨r.val, h⟩) else if r.val = 10 then 1 else 0)
      else 0 := by
  unfold t6
  by_cases hk : k.val < 2
  · rw [dif_pos hk]
    refine (concatenate_apply_piece (t := S16x16) 1 _ _ (ix2 r k) 0 (by show (0 : Nat) < 3; omega) S16x2 (t0 W1) rfl rfl 0 rfl
      (ix2 r ⟨k.val, hk⟩) (fun b => match b with | ⟨0, _⟩ => fun _ => rfl | ⟨1, _⟩ => fun hb => absurd rfl hb) ?_).trans
      (t0_apply W1 r ⟨k.val, hk⟩)
    show 0 + k.val = k.val
    omega
  · rw [dif_neg hk]
    by_cases hk2 : k.val = 2
    · rw [if_pos hk2]
      refine (concatenate_apply_piece (t := S16x16) 1 _ _ (ix2 r k) 1 (by show (1 : Nat) < 3; omega) S16x1 (t4 B1) rfl rfl 2 rfl
        (ix2 r (0 : Fin 1)) (fun b => match b with | ⟨0, _⟩ => fun _ => rfl | ⟨1, _⟩ => fun hb => absurd rfl hb) ?_).trans
        ((t4_apply B1 r 0).trans (t3_apply B1 r))
      show 2 + 0 = k.val
      omega
    · rw [if_neg hk2]
      have hk3 : k.val - 3 < 13 := by omega
      refine (concatenate_apply_piece (t := S16x16) 1 _ _ (ix2 r k) 2 (by show (2 : Nat) < 3; omega) S16x13 t5 rfl rfl 3 rfl
        (ix2 r ⟨k.val - 3, hk3⟩) (fun b => match b with | ⟨0, _⟩ => fun _ => rfl | ⟨1, _⟩ => fun hb => absurd rfl hb) ?_).trans
        (t5_apply _)
      show 3 + (k.val - 3) = k.val
      omega

/-! ## The unit row: a 1 planted at cell (0, 10) of a row of zeros -/

theorem t7_apply (i : S1x16.Idx) : t7 i = 0 := by
  unfold t7
  exact (broadcastInDim_scalar_apply _ _ _).trans (zero0_apply _)

/-- The scatter's index vector is (0, 10). -/
theorem t10_apply0 : t10 (ix1 (0 : Fin 2)) = 0#32 := by
  unfold t10
  exact concatenate_pair_apply_left (t := S2) (s₁ := S1) (s₂ := S1) _ _ _ _ (ix1 (0 : Fin 2)) rfl (ix1 (0 : Fin 1))
    (fun b => match b with | ⟨0, _⟩ => rfl)

theorem t10_apply1 : t10 (ix1 (1 : Fin 2)) = 10#32 := by
  unfold t10
  exact concatenate_pair_apply_right (t := S2) (s₁ := S1) (s₂ := S1) _ _ _ _ (ix1 (1 : Fin 2)) rfl rfl (ix1 (0 : Fin 1))
    (fun b => match b with | ⟨0, _⟩ => fun hb => absurd rfl hb) rfl

/-- Component `c` of the start index is read at position `c` of the index vector. -/
theorem siIdx_val (n : S_.Idx) (c : Fin scatter_S1x16_S2_S__n_01_01_0.scatterDimsToOperandDims.length) (b : Fin S2.rank) :
    (scatter_S1x16_S2_S__n_01_01_0.siIdx n c b).val = c.val := by
  match b with
  | ⟨0, hb⟩ =>
    unfold ScatterDims.siIdx
    split
    · rfl
    · next hne => exact absurd rfl hne

/-- With the index vector (0, 10) the one update lands at cell (0, 10). -/
theorem land_eq (idx : IVec S2 32) (h0 : idx (ix1 (0 : Fin 2)) = 0#32) (h1 : idx (ix1 (1 : Fin 2)) = 10#32) (n : S_.Idx) :
    scatter_S1x16_S2_S__n_01_01_0.resultIdx? n idx = some (ix2 (0 : Fin 1) (10 : Fin 16)) := by
  have e0 : ∀ p, scatter_S1x16_S2_S__n_01_01_0.siIdx n ⟨List.idxOf (0 : Fin 2) scatter_S1x16_S2_S__n_01_01_0.scatterDimsToOperandDims, p⟩
      = ix1 (0 : Fin 2) := fun p => funext fun b => match b with
    | ⟨0, hb⟩ => Fin.ext ((siIdx_val n _ _).trans rfl)
  have e1 : ∀ p, scatter_S1x16_S2_S__n_01_01_0.siIdx n ⟨List.idxOf (1 : Fin 2) scatter_S1x16_S2_S__n_01_01_0.scatterDimsToOperandDims, p⟩
      = ix1 (1 : Fin 2) := fun p => funext fun b => match b with
    | ⟨0, hb⟩ => Fin.ext ((siIdx_val n _ _).trans rfl)
  have hs0 : scatter_S1x16_S2_S__n_01_01_0.start n idx (0 : Fin 2) = 0 := by
    unfold ScatterDims.start
    rw [dif_pos (by decide), e0, h0]
    rfl
  have hs1 : scatter_S1x16_S2_S__n_01_01_0.start n idx (1 : Fin 2) = 10 := by
    unfold ScatterDims.start
    rw [dif_pos (by decide), e1, h1]
    rfl
  have hk : scatter_S1x16_S2_S__n_01_01_0.sKept = [] := by decide
  have hw : ∀ a, scatter_S1x16_S2_S__n_01_01_0.window n a = 0 := by
    intro a
    unfold ScatterDims.window
    split
    · next ha =>
      have ha' : a ∈ ([] : List (Fin S1x16.rank)) := by rw [← hk]; exact ha
      exact absurd ha' List.not_mem_nil
    · rfl
  have H : ∀ a : Fin S1x16.rank, scatter_S1x16_S2_S__n_01_01_0.start n idx a + (scatter_S1x16_S2_S__n_01_01_0.window n a : Int)
      = ((ix2 (0 : Fin 1) (10 : Fin 16) a).val : Int) := by
    intro a
    rw [hw a]
    match a with
    | ⟨0, _⟩ =>
      show scatter_S1x16_S2_S__n_01_01_0.start n idx (0 : Fin 2) + ((0 : Nat) : Int) = ((0 : Nat) : Int)
      rw [hs0]; rfl
    | ⟨1, _⟩ =>
      show scatter_S1x16_S2_S__n_01_01_0.start n idx (1 : Fin 2) + ((0 : Nat) : Int) = ((10 : Nat) : Int)
      rw [hs1]; rfl
  unfold ScatterDims.resultIdx?
  rw [dif_pos (fun a => by rw [H a]; exact ⟨Int.natCast_nonneg _, Int.ofNat_lt.mpr (ix2 (0 : Fin 1) (10 : Fin 16) a).isLt⟩)]
  congr 1
  funext a
  apply Fin.ext
  show (scatter_S1x16_S2_S__n_01_01_0.start n idx a + (scatter_S1x16_S2_S__n_01_01_0.window n a : Int)).toNat = _
  rw [H a]
  exact Int.toNat_natCast _

/-- The unit row, cell by cell. -/
theorem t11_apply (z : Fin 1) (k : Fin 16) : t11 (ix2 z k) = if k.val = 10 then 1 else 0 := by
  unfold t11
  have hz : z = 0 := Subsingleton.elim _ _
  subst hz
  have hl := land_eq t10 t10_apply0 t10_apply1
  by_cases hk : k.val = 10
  · rw [if_pos hk]
    have hk' : k = (10 : Fin 16) := Fin.ext hk
    subst hk'
    exact (Cert.LibScatterSet.scatter_set_hit _ t7 t10 one0 (fun _ => ix2 (0 : Fin 1) (10 : Fin 16)) hl
      (fun a b _ => Subsingleton.elim a b) ix0).trans (one0_apply _)
  · rw [if_neg hk]
    refine (Cert.LibScatterSet.scatter_set_miss _ t7 t10 one0 (fun _ => ix2 (0 : Fin 1) (10 : Fin 16)) hl (ix2 (0 : Fin 1) k)
      (fun _ e => hk ?_)).trans (t7_apply _)
    have := congrArg (fun j : S1x16.Idx => (j 1).val) e
    exact this.symm
/-! ## The middle block: the second layer's weights, its bias in column 10, the unit row, and zeros -/

theorem t12_apply (B2 : S10.Idx → EReal) (i : Fin 10) (z : Fin 1) : t12 B2 (ix2 i z) = B2 (ix1 i) := by
  unfold t12
  exact broadcastInDim_apply _ _ _ (ix2 i z) (ix1 i) (fun a => match a with | ⟨0, _⟩ => rfl)

/-- The second layer's weights with its bias appended as column 10. -/
theorem t13_apply (W2 : S10x10.Idx → EReal) (B2 : S10.Idx → EReal) (i : Fin 10) (q : Fin 11) :
    t13 W2 B2 (ix2 i q) = if h : q.val < 10 then W2 (ix2 i ⟨q.val, h⟩) else B2 (ix1 i) := by
  unfold t13
  by_cases h : q.val < 10
  · rw [dif_pos h]
    exact concatenate_pair_apply_left (t := S10x11) (s₁ := S10x10) (s₂ := S10x1) _ _ _ _ (ix2 i q) rfl (ix2 i ⟨q.val, h⟩)
      (fun b => match b with | ⟨0, _⟩ => rfl | ⟨1, _⟩ => rfl)
  · rw [dif_neg h]
    refine (concatenate_pair_apply_right (t := S10x11) (s₁ := S10x10) (s₂ := S10x1) _ _ _ _ (ix2 i q) rfl rfl (ix2 i (0 : Fin 1))
      (fun b => match b with | ⟨0, _⟩ => fun _ => rfl | ⟨1, _⟩ => fun hb => absurd rfl hb) ?_).trans (t12_apply B2 i 0)
    show 0 + 10 = q.val
    omega

/-- The same padded from eleven to sixteen columns. -/
theorem t14_apply (W2 : S10x10.Idx → EReal) (B2 : S10.Idx → EReal) (i : Fin 10) (k : Fin 16) :
    t14 W2 B2 (ix2 i k) =
      if hk : k.val < 10 then W2 (ix2 i ⟨k.val, hk⟩) else if k.val = 10 then B2 (ix1 i) else 0 := by
  unfold t14
  by_cases h : k.val < 11
  · refine (pad_apply_of_inside _ _ _ _ _ _ _ (ix2 i k) (ix2 i ⟨k.val, h⟩)
      (fun a => match a with | ⟨0, _⟩ => by show i.val = 0 + i.val * (0 + 1); omega
                             | ⟨1, _⟩ => by show k.val = 0 + k.val * (0 + 1); omega)).trans ?_
    rw [t13_apply]
    by_cases h10 : k.val < 10
    · rw [dif_pos h10, dif_pos h10]
    · rw [dif_neg h10, dif_neg h10, if_pos (by omega)]
  · rw [dif_neg (by omega), if_neg (by omega)]
    refine (pad_apply_of_not_inside _ _ _ _ _ _ _ (ix2 i k) (1 : Fin 2) ?_).trans (zpad_apply _)
    show ¬(0 ≤ k.val ∧ (k.val - 0) % (0 + 1) = 0 ∧ (k.val - 0) / (0 + 1) < 11)
    omega

theorem t15_apply (i : S5x16.Idx) : t15 i = 0 := by
  unfold t15
  exact (broadcastInDim_scalar_apply _ _ _).trans (zero0_apply _)

/-! ## The bottom block: the last layer's weights and its bias in column 10 of row 0, and zeros -/

theorem t17_apply (B3 : S1.Idx → EReal) (z z' : Fin 1) : t17 B3 (ix2 z z') = B3 (ix1 (0 : Fin 1)) := by
  unfold t17
  exact broadcastInDim_apply _ _ _ (ix2 z z') (ix1 (0 : Fin 1)) (fun a => match a with | ⟨0, _⟩ => rfl)

/-- The last layer's weights with its bias appended as column 10. -/
theorem t18_apply (W3 : S1x10.Idx → EReal) (B3 : S1.Idx → EReal) (z : Fin 1) (q : Fin 11) :
    t18 W3 B3 (ix2 z q) = if h : q.val < 10 then W3 (ix2 (0 : Fin 1) ⟨q.val, h⟩) else B3 (ix1 (0 : Fin 1)) := by
  unfold t18
  have hz : z = 0 := Subsingleton.elim _ _
  subst hz
  by_cases h : q.val < 10
  · rw [dif_pos h]
    exact concatenate_pair_apply_left (t := S1x11) (s₁ := S1x10) (s₂ := S1x1) _ _ _ _ (ix2 (0 : Fin 1) q) rfl (ix2 (0 : Fin 1) ⟨q.val, h⟩)
      (fun b => match b with | ⟨0, _⟩ => rfl | ⟨1, _⟩ => rfl)
  · rw [dif_neg h]
    refine (concatenate_pair_apply_right (t := S1x11) (s₁ := S1x10) (s₂ := S1x1) _ _ _ _ (ix2 (0 : Fin 1) q) rfl rfl (ix2 (0 : Fin 1) (0 : Fin 1))
      (fun b => match b with | ⟨0, _⟩ => fun _ => rfl | ⟨1, _⟩ => fun hb => absurd rfl hb) ?_).trans (t17_apply B3 0 0)
    show 0 + 10 = q.val
    omega

/-- The bottom 8 × 16 block, cell by cell. -/
theorem t19_apply (W3 : S1x10.Idx → EReal) (B3 : S1.Idx → EReal) (r : Fin 8) (k : Fin 16) :
    t19 W3 B3 (ix2 r k) =
      if r.val = 0 then (if hk : k.val < 10 then W3 (ix2 (0 : Fin 1) ⟨k.val, hk⟩) else if k.val = 10 then B3 (ix1 (0 : Fin 1)) else 0)
      else 0 := by
  unfold t19
  by_cases hr : r.val = 0
  · rw [if_pos hr]
    by_cases h : k.val < 11
    · refine (pad_apply_of_inside _ _ _ _ _ _ _ (ix2 r k) (ix2 (0 : Fin 1) ⟨k.val, h⟩)
        (fun a => match a with | ⟨0, _⟩ => by show r.val = 0 + 0 * (0 + 1); omega
                               | ⟨1, _⟩ => by show k.val = 0 + k.val * (0 + 1); omega)).trans ?_
      rw [t18_apply]
      by_cases h10 : k.val < 10
      · rw [dif_pos h10, dif_pos h10]
      · rw [dif_neg h10, dif_neg h10, if_pos (by omega)]
    · rw [dif_neg (by omega), if_neg (by omega)]
      refine (pad_apply_of_not_inside _ _ _ _ _ _ _ (ix2 r k) (1 : Fin 2) ?_).trans (zpad_apply _)
      show ¬(0 ≤ k.val ∧ (k.val - 0) % (0 + 1) = 0 ∧ (k.val - 0) / (0 + 1) < 11)
      omega
  · rw [if_neg hr]
    refine (pad_apply_of_not_inside _ _ _ _ _ _ _ (ix2 r k) (0 : Fin 2) ?_).trans (zpad_apply _)
    show ¬(0 ≤ r.val ∧ (r.val - 0) % (0 + 1) = 0 ∧ (r.val - 0) / (0 + 1) < 1)
    omega

/-- The middle 16 × 16 block, cell by cell. -/
theorem t16_apply (W2 : S10x10.Idx → EReal) (B2 : S10.Idx → EReal) (r : Fin 16) (k : Fin 16) :
    t16 W2 B2 (ix2 r k) =
      if h : r.val < 10 then
        (if hk : k.val < 10 then W2 (ix2 ⟨r.val, h⟩ ⟨k.val, hk⟩) else if k.val = 10 then B2 (ix1 ⟨r.val, h⟩) else 0)
      else if r.val = 10 then (if k.val = 10 then 1 else 0)
      else 0 := by
  unfold t16
  by_cases h : r.val < 10
  · rw [dif_pos h]
    refine (concatenate_apply_piece (t := S16x16) 0 _ _ (ix2 r k) 0 (by show (0 : Nat) < 3; omega) S10x16 (t14 W2 B2) rfl rfl 0 rfl
      (ix2 ⟨r.val, h⟩ k) (fun b => match b with | ⟨0, _⟩ => fun hb => absurd rfl hb | ⟨1, _⟩ => fun _ => rfl) ?_).trans
      (t14_apply W2 B2 ⟨r.val, h⟩ k)
    show 0 + r.val = r.val
    omega
  · rw [dif_neg h]
    by_cases h10 : r.val = 10
    · rw [if_pos h10]
      refine (concatenate_apply_piece (t := S16x16) 0 _ _ (ix2 r k) 1 (by show (1 : Nat) < 3; omega) S1x16 t11 rfl rfl 10 rfl
        (ix2 (0 : Fin 1) k) (fun b => match b with | ⟨0, _⟩ => fun hb => absurd rfl hb | ⟨1, _⟩ => fun _ => rfl) ?_).trans
        (t11_apply 0 k)
      show 10 + 0 = r.val
      omega
    · rw [if_neg h10]
      have h11 : r.val - 11 < 5 := by omega
      refine (concatenate_apply_piece (t := S16x16) 0 _ _ (ix2 r k) 2 (by show (2 : Nat) < 3; omega) S5x16 t15 rfl rfl 11 rfl
        (ix2 ⟨r.val - 11, h11⟩ k) (fun b => match b with | ⟨0, _⟩ => fun hb => absurd rfl hb | ⟨1, _⟩ => fun _ => rfl) ?_).trans
        (t15_apply _)
      show 11 + (r.val - 11) = r.val
      omega

/-! ## The packed array: the three blocks stacked -/

theorem t20_apply_top (W1 : S10x2.Idx → EReal) (B1 : S10.Idx → EReal) (W2 : S10x10.Idx → EReal) (B2 : S10.Idx → EReal)
    (W3 : S1x10.Idx → EReal) (B3 : S1.Idx → EReal) (r : Fin 40) (k : Fin 16) (h : r.val < 16) :
    t20 W1 B1 W2 B2 W3 B3 (ix2 r k) = t6 W1 B1 (ix2 ⟨r.val, h⟩ k) := by
  unfold t20
  refine concatenate_apply_piece (t := S40x16) 0 _ _ (ix2 r k) 0 (by show (0 : Nat) < 3; omega) S16x16 (t6 W1 B1) rfl rfl 0 rfl
    (ix2 ⟨r.val, h⟩ k) (fun b => match b with | ⟨0, _⟩ => fun hb => absurd rfl hb | ⟨1, _⟩ => fun _ => rfl) ?_
  show 0 + r.val = r.val
  omega

theorem t20_apply_mid (W1 : S10x2.Idx → EReal) (B1 : S10.Idx → EReal) (W2 : S10x10.Idx → EReal) (B2 : S10.Idx → EReal)
    (W3 : S1x10.Idx → EReal) (B3 : S1.Idx → EReal) (r : Fin 40) (k : Fin 16) (h : 16 ≤ r.val) (h' : r.val - 16 < 16) :
    t20 W1 B1 W2 B2 W3 B3 (ix2 r k) = t16 W2 B2 (ix2 ⟨r.val - 16, h'⟩ k) := by
  unfold t20
  refine concatenate_apply_piece (t := S40x16) 0 _ _ (ix2 r k) 1 (by show (1 : Nat) < 3; omega) S16x16 (t16 W2 B2) rfl rfl 16 rfl
    (ix2 ⟨r.val - 16, h'⟩ k) (fun b => match b with | ⟨0, _⟩ => fun hb => absurd rfl hb | ⟨1, _⟩ => fun _ => rfl) ?_
  show 16 + (r.val - 16) = r.val
  omega

theorem t20_apply_bot (W1 : S10x2.Idx → EReal) (B1 : S10.Idx → EReal) (W2 : S10x10.Idx → EReal) (B2 : S10.Idx → EReal)
    (W3 : S1x10.Idx → EReal) (B3 : S1.Idx → EReal) (r : Fin 40) (k : Fin 16) (h : 32 ≤ r.val) (h' : r.val - 32 < 8) :
    t20 W1 B1 W2 B2 W3 B3 (ix2 r k) = t19 W3 B3 (ix2 ⟨r.val - 32, h'⟩ k) := by
  unfold t20
  refine concatenate_apply_piece (t := S40x16) 0 _ _ (ix2 r k) 2 (by show (2 : Nat) < 3; omega) S8x16 (t19 W3 B3) rfl rfl 32 rfl
    (ix2 ⟨r.val - 32, h'⟩ k) (fun b => match b with | ⟨0, _⟩ => fun hb => absurd rfl hb | ⟨1, _⟩ => fun _ => rfl) ?_
  show 32 + (r.val - 32) = r.val
  omega

/-- The composed term is the packed array of the specification. -/
theorem t20_eq_packed (W1 : S10x2.Idx → EReal) (B1 : S10.Idx → EReal) (W2 : S10x10.Idx → EReal) (B2 : S10.Idx → EReal)
    (W3 : S1x10.Idx → EReal) (B3 : S1.Idx → EReal) (r : Fin 40) (k : Fin 16) :
    t20 W1 B1 W2 B2 W3 B3 (ix2 r k) = packed (cW1 W1) (cB B1) (cW2 W2) (cB B2) (cW3 W3) (cB3 B3) r k := by
  unfold packed
  by_cases hr : r.val < 16
  · rw [dif_pos hr, t20_apply_top _ _ _ _ _ _ r k hr, t6_apply]
    rfl
  · rw [dif_neg hr]
    by_cases hr2 : r.val < 32
    · rw [dif_pos hr2, t20_apply_mid _ _ _ _ _ _ r k (by omega) (by omega), t16_apply]
      rfl
    · rw [dif_neg hr2, t20_apply_bot _ _ _ _ _ _ r k (by omega) (by have := r.isLt; omega), t19_apply]
      by_cases h32 : r.val = 32
      · rw [if_pos h32, if_pos (show (⟨r.val - 32, _⟩ : Fin 8).val = 0 by show r.val - 32 = 0; omega)]
        rfl
      · rw [if_neg h32, if_neg (show ¬(⟨r.val - 32, _⟩ : Fin 8).val = 0 by show ¬(r.val - 32 = 0); omega)]

/-! ## The run: what the host operations leave in the packed array's buffer -/

/-- The host operations before the region, run in order from the launch contents, leave in the packed array's
    buffer the composed term of the six parameter arrays. -/
theorem run_eq (m : (ℓ : Loc nD τ sig) → Buf (Elt Ideal) ℓ) (c : Dev nD) :
    (StableHlo.after (List.flatten [hostOps0 (F := Ideal), hostOps0_1, hostOps0_2, hostOps0_3, hostOps0_4, hostOps0_5, hostOps0_6, hostOps0_7, hostOps0_8])
        (fun b => m (c, b)) (Proc.devRef .tc main_v20) : S40x16.Idx → EReal)
      = t20 (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The packed parameter array the kernel's region starts from holds, cell by cell, what the specification's
    `packed` says of the six parameter arrays. -/
theorem packed_apply (m : (ℓ : Loc nD τ sig) → Buf (Elt Ideal) ℓ) (c : Dev nD) (r : Fin 40) (k : Fin 16) :
    (StableHlo.after (List.flatten [hostOps0 (F := Ideal), hostOps0_1, hostOps0_2, hostOps0_3, hostOps0_4, hostOps0_5, hostOps0_6, hostOps0_7, hostOps0_8])
        (fun b => m (c, b)) (Proc.devRef .tc main_v20) : S40x16.Idx → EReal) (ix2 r k)
      = packed (cW1 (m ((c.tc : Thread nD τ).loc main_arg1))) (cB (m ((c.tc : Thread nD τ).loc main_arg2)))
          (cW2 (m ((c.tc : Thread nD τ).loc main_arg3))) (cB (m ((c.tc : Thread nD τ).loc main_arg4)))
          (cW3 (m ((c.tc : Thread nD τ).loc main_arg5))) (cB3 (m ((c.tc : Thread nD τ).loc main_arg6))) r k := by
  rw [run_eq m c]
  exact t20_eq_packed _ _ _ _ _ _ r k

end Cert.KernelIdeal.Packed

end
-- ==== Proof.RefValueBlocks.lean ====
/-
  The reference program's stored block at one entry, as the network's value on one sample:
  the body's loads read the whole weight blocks, two columns and one cell of the 10 × 3 bias block,
  and one column of the input block; its one store covers the output block.
-/
import proofs.«159392_g2000409670772848_pallaspilot1_20_20_alg».proof.Proof.Gen.ReferenceIdeal.Frame
import proofs.«159392_g2000409670772848_pallaspilot1_20_20_alg».proof.Proof.MlpSpec
import Idealize.ShloMosaic.Lib.Pipeline.Value
import Idealize.ShloMosaic.Lib.ValueIdx
import Idealize.ShloMosaic.Lib.StableHlo.Run
import Idealize.ShloMosaic.Lib.Tactic

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.MlpSpec
open Idealize.ShloMosaic.Pipeline (Dat)

/-- The zero offsets of a rank-2 rectangle. -/
theorem hz : (![0, 0] : Fin 2 → Nat) = fun _ => 0 := funext fun a => by fin_cases a <;> rfl

/-- Column 0 of a 10 × 3 array, loaded as a 10 × 1 block. -/
theorem ld_col0 (b : Vec Ideal S10x3 .f32) (j : Fin 10) :
    View.ld b r0_1 (ix2 j (0 : Fin 1)) = b (ix2 j (0 : Fin 3)) := by
  show b (r0_1.idx (ix2 j (0 : Fin 1))) = b (ix2 j (0 : Fin 3))
  refine congrArg b (funext fun a => Fin.ext ?_)
  match a with
  | ⟨0, _⟩ => show 0 + 1 * j.val = j.val; omega
  | ⟨1, _⟩ => rfl

/-- Column 1 of a 10 × 3 array, loaded as a 10 × 1 block. -/
theorem ld_col1 (b : Vec Ideal S10x3 .f32) (j : Fin 10) :
    View.ld b r0_2 (ix2 j (0 : Fin 1)) = b (ix2 j (1 : Fin 3)) := by
  show b (r0_2.idx (ix2 j (0 : Fin 1))) = b (ix2 j (1 : Fin 3))
  refine congrArg b (funext fun a => Fin.ext ?_)
  match a with
  | ⟨0, _⟩ => show 0 + 1 * j.val = j.val; omega
  | ⟨1, _⟩ => rfl

/-- Cell (0, 2) of a 10 × 3 array, loaded as a 1 × 1 block. -/
theorem ld_cell (b : Vec Ideal S10x3 .f32) :
    View.ld b r0_3 (ix2 (0 : Fin 1) (0 : Fin 1)) = b (ix2 (0 : Fin 10) (2 : Fin 3)) := by
  show b (r0_3.idx (ix2 (0 : Fin 1) (0 : Fin 1))) = b (ix2 (0 : Fin 10) (2 : Fin 3))
  refine congrArg b (funext fun a => Fin.ext ?_)
  match a with
  | ⟨0, _⟩ => rfl
  | ⟨1, _⟩ => rfl

/-- The bias array's column 0 is the first bias, column 1 the second, cell (0, 2) the last. -/
theorem bias3_col0 (b1 b2 : Fin 10 → EReal) (b3 : EReal) (j : Fin 10) : bias3 b1 b2 b3 j (0 : Fin 3) = b1 j := by
  unfold bias3; exact if_pos rfl
theorem bias3_col1 (b1 b2 : Fin 10 → EReal) (b3 : EReal) (j : Fin 10) : bias3 b1 b2 b3 j (1 : Fin 3) = b2 j := by
  unfold bias3; exact (if_neg (by decide)).trans (if_pos rfl)
theorem bias3_cell (b1 b2 : Fin 10 → EReal) (b3 : EReal) : bias3 b1 b2 b3 (0 : Fin 10) (2 : Fin 3) = b3 := by
  unfold bias3; exact (if_neg (by decide)).trans ((if_neg (by decide)).trans (if_pos rfl))

section
variable (hpay : ∀ (x : Vec Ideal S2x32768 .f32) (c1 c2 : Vec Ideal S10x1 .f32) (c3 : Vec Ideal S1x1 .f32) (w1 : Vec Ideal S10x2 .f32) (w2 : Vec Ideal S10x10 .f32) (w3 : Vec Ideal S1x10 .f32) (p : Fin 32768),
      Gen.k0_pay1 (F := Ideal) x c1 c2 c3 w1 w2 w3 (ix2 (0 : Fin 1) p)
        = mlp (fun j k => w1 (ix2 j k)) (fun j => c1 (ix2 j (0 : Fin 1))) (fun i j => w2 (ix2 i j)) (fun i => c2 (ix2 i (0 : Fin 1)))
            (fun i => w3 (ix2 (0 : Fin 1) i)) (c3 (ix2 (0 : Fin 1) (0 : Fin 1))) (fun k => x (ix2 k p)))
include hpay

/-- The body's stored block at one entry, from the blocks it loads: the network on that column of the input block. -/
theorem block_value (x0 : Vec Ideal S2x32768 .f32) (x1 : Vec Ideal S10x2 .f32) (x2 : Vec Ideal S10x10 .f32) (x3 : Vec Ideal S1x10 .f32) (x4 : Vec Ideal S10x3 .f32)
    (X : SX.Idx → EReal) (W1 : SW1.Idx → EReal) (B1 : SB.Idx → EReal) (W2 : SW2.Idx → EReal) (B2 : SB.Idx → EReal) (W3 : SW3.Idx → EReal) (B3 : SB3.Idx → EReal)
    (y : S1x32768.Idx) (b : Fin 4194304)
    (h0 : ∀ k : Fin 2, x0 (ix2 k (y 1)) = X (ix2 k b))
    (h1 : ∀ (j : Fin 10) (k : Fin 2), x1 (ix2 j k) = W1 (ix2 j k))
    (h2 : ∀ (i j : Fin 10), x2 (ix2 i j) = W2 (ix2 i j))
    (h3 : ∀ (i : Fin 10), x3 (ix2 (0 : Fin 1) i) = W3 (ix2 (0 : Fin 1) i))
    (h4 : ∀ (j : Fin 10) (q : Fin 3), x4 (ix2 j q) = bias3 (cB B1) (cB B2) (cB3 B3) j q) :
    out0_5 (F := Ideal) x0 x1 x2 x3 x4 y = mlp (cW1 W1) (cB B1) (cW2 W2) (cB B2) (cW3 W3) (cB3 B3) (cX X b) := by
  obtain ⟨a, p, rfl⟩ : ∃ (a : Fin 1) (p : Fin 32768), y = ix2 a p := ⟨y 0, y 1, eq_ix2 y⟩
  obtain rfl : a = 0 := Subsingleton.elim _ _
  unfold out0_5
  rw [View.canon_unit_zero hz]
  refine (hpay _ _ _ _ _ _ _ p).trans ?_
  have e1 : (fun (j : Fin 10) (k : Fin 2) => View.ld x1 r0_4 (ix2 j k)) = cW1 W1 :=
    funext fun j => funext fun k => (congrFun (View.ld_unit_zero (S := S10x2) hz _ x1) (ix2 j k)).trans (h1 j k)
  have e2 : (fun (j : Fin 10) => View.ld x4 r0_1 (ix2 j (0 : Fin 1))) = cB B1 :=
    funext fun j => (ld_col0 x4 j).trans ((h4 j 0).trans (bias3_col0 _ _ _ j))
  have e3 : (fun (i j : Fin 10) => View.ld x2 r0_5 (ix2 i j)) = cW2 W2 :=
    funext fun i => funext fun j => (congrFun (View.ld_unit_zero (S := S10x10) hz _ x2) (ix2 i j)).trans (h2 i j)
  have e4 : (fun (i : Fin 10) => View.ld x4 r0_2 (ix2 i (0 : Fin 1))) = cB B2 :=
    funext fun i => (ld_col1 x4 i).trans ((h4 i 1).trans (bias3_col1 _ _ _ i))
  have e5 : (fun (i : Fin 10) => View.ld x3 r0_6 (ix2 (0 : Fin 1) i)) = cW3 W3 :=
    funext fun i => (congrFun (View.ld_unit_zero (S := S1x10) hz _ x3) (ix2 (0 : Fin 1) i)).trans (h3 i)
  have e6 : View.ld x4 r0_3 (ix2 (0 : Fin 1) (0 : Fin 1)) = cB3 B3 :=
    (ld_cell x4).trans ((h4 0 2).trans (bias3_cell _ _ _))
  have e7 : (fun (k : Fin 2) => View.ld x0 r0_0 (ix2 k p)) = cX X b :=
    funext fun k => (congrFun (View.ld_unit_zero (S := S2x32768) hz _ x0) (ix2 k p)).trans (h0 k)
  rw [e1, e2, e3, e4, e5, e6, e7]

end

end Cert.ReferenceIdeal.RefValue

end
-- ==== Proof.RefValue.lean ====
/-
  The reference program's result array as one function of its arguments.

  The region runs over 128 points; point `t` reads columns `32768 t … 32768 t + 32767` of the 2 × 4194304 input,
  the three weight arrays whole, and the 10 × 3 bias array the host operations before the region built, and writes
  back block `t` of a 1 × 4194304 array. Entry (0, b) of that array is the network's value on sample `b`
  (`Gout`): each point writes its block of `Gout` (`flushed_eq`), the 128 blocks cover the array (`cover5`),
  so the array ends at `Gout` (`final5`). The two reshapes after the region, 1 × 4194304 → 4194304 → 4194304 × 1,
  keep row-major positions, so row `b` of the result holds the value on sample `b`: the result array is
  `G` of the seven arguments (`tail_v12`), and the run's post follows (`run_of`).
-/
import proofs.«159392_g2000409670772848_pallaspilot1_20_20_alg».proof.Proof.RefValueBlocks

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.MlpSpec
open Idealize.ShloMosaic.Pipeline (Dat)

section Main

variable (m : (ℓ : Loc nD τ sig) → Buf (Elt Ideal) ℓ) (ρ : Dev nD → PrngReg)

/-- The printed index maps, decided over the grid: the input's and the output's blocks move along the
    long axis with the point, every other window stays at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The input window's block at point `t` is columns `32768 t …` of the input array. -/
theorem iblk0_apply (c : Dev nD) (t : Fin cfg0.N) (k : Fin 2) (p : Fin 32768) (b : Fin 4194304)
    (hb : b.val = t.val * 32768 + p.val) :
    (iblk m c 0 t : Vec Ideal S2x32768 .f32) (ix2 k p)
      = (m ((c.tc : Thread nD τ).loc main_arg0) : S2x4194304.Idx → EReal) (ix2 k b) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2 + 1 * k.val = k.val; rw [e0]; omega
  | ⟨1, _⟩ => show win0_0.index t (1 : Fin 2) * 32768 + 1 * p.val = b.val; rw [e1, hb]; omega

/-- The first weight window's block is the whole array. -/
theorem iblk1_apply (c : Dev nD) (t : Fin cfg0.N) (j : Fin 10) (k : Fin 2) :
    (iblk m c 1 t : Vec Ideal S10x2 .f32) (ix2 j k)
      = (m ((c.tc : Thread nD τ).loc main_arg1) : S10x2.Idx → EReal) (ix2 j k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 10 + 1 * j.val = j.val; rw [e0]; omega
  | ⟨1, _⟩ => show win0_1.index t (1 : Fin 2) * 2 + 1 * k.val = k.val; rw [e1]; omega

/-- The second weight window's block is the whole array. -/
theorem iblk2_apply (c : Dev nD) (t : Fin cfg0.N) (i j : Fin 10) :
    (iblk m c 2 t : Vec Ideal S10x10 .f32) (ix2 i j)
      = (m ((c.tc : Thread nD τ).loc main_arg3) : S10x10.Idx → EReal) (ix2 i j) := by
  obtain ⟨-, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_2.index t (0 : Fin 2) * 10 + 1 * i.val = i.val; rw [e0]; omega
  | ⟨1, _⟩ => show win0_2.index t (1 : Fin 2) * 10 + 1 * j.val = j.val; rw [e1]; omega

/-- The last weight window's block is the whole array. -/
theorem iblk3_apply (c : Dev nD) (t : Fin cfg0.N) (u : Fin 1) (i : Fin 10) :
    (iblk m c 3 t : Vec Ideal S1x10 .f32) (ix2 u i)
      = (m ((c.tc : Thread nD τ).loc main_arg5) : S1x10.Idx → EReal) (ix2 u i) := by
  obtain ⟨-, -, -, -, -, -, e0, e1, -⟩ := idx_facts t
  unfold iblk
  rw [View.read_apply]
  show V m c main_arg5 _ = _
  rw [V_main_arg5]
  refine congrArg _ (funext fun a => Fin.ext ?_)
  match a with
  | ⟨0, _⟩ => show win0_3.index t (0 : Fin 2) * 1 + 1 * u.val = u.val; rw [e0]; omega
  | ⟨1, _⟩ => show win0_3.index t (1 : Fin 2) * 10 + 1 * i.val = i.val; rw [e1]; omega

/-- The bias window's block is the whole 10 × 3 array the host operations built. -/
theorem iblk4_apply (c : Dev nD) (t : Fin cfg0.N) (j : Fin 10) (q : Fin 3) :
    (iblk m c 4 t : Vec Ideal S10x3 .f32) (ix2 j q) = (V m c main_v9 : S10x3.Idx → EReal) (ix2 j q) := by
  obtain ⟨-, -, -, -, -, -, -, -, e0, e1, -⟩ := idx_facts t
  unfold iblk
  rw [View.read_apply]
  show V m c main_v9 _ = _
  refine congrArg _ (funext fun a => Fin.ext ?_)
  match a with
  | ⟨0, _⟩ => show win0_4.index t (0 : Fin 2) * 10 + 1 * j.val = j.val; rw [e0]; omega
  | ⟨1, _⟩ => show win0_4.index t (1 : Fin 2) * 3 + 1 * q.val = q.val; rw [e1]; omega

/-- The region's whole output array, 1 × 4194304: column `b` holds the network's value on sample `b`. -/
def Gout (c : Dev nD) : S1x4194304.Idx → EReal := fun i =>
  mlp (cW1 (m ((c.tc : Thread nD τ).loc main_arg1))) (cB (m ((c.tc : Thread nD τ).loc main_arg2))) (cW2 (m ((c.tc : Thread nD τ).loc main_arg3))) (cB (m ((c.tc : Thread nD τ).loc main_arg4))) (cW3 (m ((c.tc : Thread nD τ).loc main_arg5))) (cB3 (m ((c.tc : Thread nD τ).loc main_arg6))) (cX (m ((c.tc : Thread nD τ).loc main_arg0)) (i 1))

section
variable (hpay : ∀ (x : Vec Ideal S2x32768 .f32) (c1 c2 : Vec Ideal S10x1 .f32) (c3 : Vec Ideal S1x1 .f32) (w1 : Vec Ideal S10x2 .f32) (w2 : Vec Ideal S10x10 .f32) (w3 : Vec Ideal S1x10 .f32) (p : Fin 32768),
      Gen.k0_pay1 (F := Ideal) x c1 c2 c3 w1 w2 w3 (ix2 (0 : Fin 1) p)
        = mlp (fun j k => w1 (ix2 j k)) (fun j => c1 (ix2 j (0 : Fin 1))) (fun i j => w2 (ix2 i j)) (fun i => c2 (ix2 i (0 : Fin 1)))
            (fun i => w3 (ix2 (0 : Fin 1) i)) (c3 (ix2 (0 : Fin 1) (0 : Fin 1))) (fun k => x (ix2 k p)))
  (hbias : ∀ (m : (ℓ : Loc nD τ sig) → Buf (Elt Ideal) ℓ) (c : Dev nD) (j : Fin 10) (q : Fin 3),
      (Gen.V m c main_v9 : S10x3.Idx → EReal) (ix2 j q)
        = bias3 (cB (m ((c.tc : Thread nD τ).loc main_arg2))) (cB (m ((c.tc : Thread nD τ).loc main_arg4))) (cB3 (m ((c.tc : Thread nD τ).loc main_arg6))) j q)
include hpay hbias

/-- What point `t` writes back is block `t` of `Gout`. -/
theorem flushed_eq (c : Dev nD) (t : Fin cfg0.N) :
    (dats m 0 c).flushed 5 t = ((cfg0.win 5).blk t).view.read (Elt Ideal) (Gout m c) := by
  show (cfg0.win 5).cut (grid0.coords t) ((dats m 0 c).after 5 t) = _
  rw [after0_5]
  obtain ⟨-, -, -, -, -, -, -, -, -, -, e0, e1⟩ := idx_facts t
  funext y
  have ht : t.val < 128 := lt_of_lt_of_eq t.isLt (show cfg0.N = 128 from N_0)
  have hy : (y 1).val < 32768 := (y 1).isLt
  refine (block_value hpay (iblk m c 0 t) (iblk m c 1 t) (iblk m c 2 t) (iblk m c 3 t) (iblk m c 4 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) y ⟨t.val * 32768 + (y 1).val, by omega⟩
    (fun k => iblk0_apply m c t k (y 1) _ rfl) (fun j k => iblk1_apply m c t j k) (fun i j => iblk2_apply m c t i j)
    (fun i => iblk3_apply m c t 0 i) (fun j q => (iblk4_apply m c t j q).trans (hbias m c j q))).trans ?_
  show _ = Gout m c (((cfg0.win 5).blk t).view.emb y)
  unfold Gout
  refine congrArg (fun b => mlp (cW1 (m ((c.tc : Thread nD τ).loc main_arg1))) (cB (m ((c.tc : Thread nD τ).loc main_arg2))) (cW2 (m ((c.tc : Thread nD τ).loc main_arg3))) (cB (m ((c.tc : Thread nD τ).loc main_arg4))) (cW3 (m ((c.tc : Thread nD τ).loc main_arg5))) (cB3 (m ((c.tc : Thread nD τ).loc main_arg6))) (cX (m ((c.tc : Thread nD τ).loc main_arg0)) b)) (Fin.ext ?_)
  show t.val * 32768 + (y 1).val = win0_5.index t (1 : Fin 2) * 32768 + 1 * (y 1).val
  rw [e1]; omega

end

/-- An index of the output array is in point `t`'s block iff each coordinate is in the block's range on its axis. -/
theorem mem_blk5 (t : Fin cfg0.N) (i : S1x4194304.Idx) :
    i ∈ ((cfg0.win 5).blk t).view.set ↔ ∀ a : Fin 2, win0_5.index t a * S1x32768.size a ≤ (i a).val ∧ (i a).val < win0_5.index t a * S1x32768.size a + S1x32768.size a := by
  show i ∈ ((View.whole main_v10).slice (win0_5.rect t)).set ↔ _
  rw [View.set_slice_whole, Rect.mem_set_unit]
  exact Iff.rfl

/-- Every column of the output array is in the block of the point `column / 32768`. -/
theorem cover5 (i : S1x4194304.Idx) :
    ∃ t : Fin cfg0.N, (cfg0.win 5).flush t = true ∧ i ∈ ((cfg0.win 5).blk t).view.set := by
  have hi0 : (i 0).val < 1 := (i 0).isLt
  have hi1 : (i 1).val < 4194304 := (i 1).isLt
  have hN : cfg0.N = 128 := N_0
  let t : Fin cfg0.N := ⟨(i 1).val / 32768, by rw [hN]; omega⟩
  have htv : t.val = (i 1).val / 32768 := rfl
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 1 ≤ (i 0).val ∧ (i 0).val < win0_5.index t (0 : Fin 2) * 1 + 1; rw [e0]; omega
  | ⟨1, _⟩ => show win0_5.index t (1 : Fin 2) * 32768 ≤ (i 1).val ∧ (i 1).val < win0_5.index t (1 : Fin 2) * 32768 + 32768; rw [e1, htv]; omega

section
variable (hpay : ∀ (x : Vec Ideal S2x32768 .f32) (c1 c2 : Vec Ideal S10x1 .f32) (c3 : Vec Ideal S1x1 .f32) (w1 : Vec Ideal S10x2 .f32) (w2 : Vec Ideal S10x10 .f32) (w3 : Vec Ideal S1x10 .f32) (p : Fin 32768),
      Gen.k0_pay1 (F := Ideal) x c1 c2 c3 w1 w2 w3 (ix2 (0 : Fin 1) p)
        = mlp (fun j k => w1 (ix2 j k)) (fun j => c1 (ix2 j (0 : Fin 1))) (fun i j => w2 (ix2 i j)) (fun i => c2 (ix2 i (0 : Fin 1)))
            (fun i => w3 (ix2 (0 : Fin 1) i)) (c3 (ix2 (0 : Fin 1) (0 : Fin 1))) (fun k => x (ix2 k p)))
  (hbias : ∀ (m : (ℓ : Loc nD τ sig) → Buf (Elt Ideal) ℓ) (c : Dev nD) (j : Fin 10) (q : Fin 3),
      (Gen.V m c main_v9 : S10x3.Idx → EReal) (ix2 j q)
        = bias3 (cB (m ((c.tc : Thread nD τ).loc main_arg2))) (cB (m ((c.tc : Thread nD τ).loc main_arg4))) (cB3 (m ((c.tc : Thread nD τ).loc main_arg6))) j q)
include hpay hbias

/-- The region's output array after the run is `Gout`. -/
theorem final5 (c : Dev nD) : (dats m 0 c).arrAt 5 cfg0.N = Gout m c :=
  (dats m 0 c).arrAt_eq_of_cover 5 (Gout m c) (fun t _ => flushed_eq m hpay hbias c t) cover5

end

/-- Two reshapes 1 × 4194304 → 4194304 → 4194304 × 1 keep the row-major position: row `b` reads column `b`. -/
theorem tail_read (g : S1x4194304.Idx → EReal) (h1 : S1x4194304.ShapeCasts S4194304) (h2 : S4194304.ShapeCasts S4194304x1)
    (b : Fin 4194304) (u : Fin 1) :
    shapeCast S4194304x1 (shapeCast S4194304 g h1) h2 (ix2 b u) = g (ix2 (0 : Fin 1) b) := by
  have hu : u.val = 0 := by omega
  refine (shapeCast_apply _ h2 (ix2 b u) (ix1 b) ?_).trans (shapeCast_apply g h1 (ix1 b) (ix2 (0 : Fin 1) b) ?_)
  · rw [Shape.rowMajor_val_one, Shape.rowMajor_val_two]
    show b.val = b.val * 1 + u.val
    omega
  · rw [Shape.rowMajor_val_two, Shape.rowMajor_val_one]
    show 0 * 4194304 + b.val = b.val
    omega

section
variable (hpay : ∀ (x : Vec Ideal S2x32768 .f32) (c1 c2 : Vec Ideal S10x1 .f32) (c3 : Vec Ideal S1x1 .f32) (w1 : Vec Ideal S10x2 .f32) (w2 : Vec Ideal S10x10 .f32) (w3 : Vec Ideal S1x10 .f32) (p : Fin 32768),
      Gen.k0_pay1 (F := Ideal) x c1 c2 c3 w1 w2 w3 (ix2 (0 : Fin 1) p)
        = mlp (fun j k => w1 (ix2 j k)) (fun j => c1 (ix2 j (0 : Fin 1))) (fun i j => w2 (ix2 i j)) (fun i => c2 (ix2 i (0 : Fin 1)))
            (fun i => w3 (ix2 (0 : Fin 1) i)) (c3 (ix2 (0 : Fin 1) (0 : Fin 1))) (fun k => x (ix2 k p)))
  (hbias : ∀ (m : (ℓ : Loc nD τ sig) → Buf (Elt Ideal) ℓ) (c : Dev nD) (j : Fin 10) (q : Fin 3),
      (Gen.V m c main_v9 : S10x3.Idx → EReal) (ix2 j q)
        = bias3 (cB (m ((c.tc : Thread nD τ).loc main_arg2))) (cB (m ((c.tc : Thread nD τ).loc main_arg4))) (cB3 (m ((c.tc : Thread nD τ).loc main_arg6))) j q)
include hpay hbias

/-- The result array after the host operations that follow the region: `G` of the arguments. -/
theorem tail_v12 (c : Dev nD) :
    Pipeline.afterTail₀ cfgs (dats m) 0 (V0 m) [hostOps1] c main_v12
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v12) = _
  after_results
  rw [(Pipeline.withArrays_arr spec0 launch0.win.arr_inj c _ _ 5).trans (final5 m hpay hbias c)]
  funext i
  obtain ⟨b, u, rfl⟩ : ∃ (b : Fin 4194304) (u : Fin 1), i = ix2 b u := ⟨i 0, i 1, eq_ix2 i⟩
  exact tail_read (Gout m c) _ _ b u

/-- The reference program's run: the result array at `G` of the arguments, the arguments unchanged. -/
theorem run_value : θ_run (Cert.ReferenceIdeal.defs (F := Ideal)) (onTc (τ := τ) (main (F := Ideal))) ⟨m, fun _ => 0, ρ⟩ (fun r => ∀ c : Dev nD,
      r.2.mem ((c.tc : Thread nD τ).loc main_v12)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v12 (Pipeline.mem_restRefs_of main_v12 (by decide) (by decide))).trans (tail_v12 m hpay hbias c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c))⟩)
    (Gen.run_main m ρ)

end

end Main

/-- The same, the two facts about the body's arithmetic and about the bias array first. -/
theorem run_of (hpay : ∀ (x : Vec Ideal S2x32768 .f32) (c1 c2 : Vec Ideal S10x1 .f32) (c3 : Vec Ideal S1x1 .f32) (w1 : Vec Ideal S10x2 .f32) (w2 : Vec Ideal S10x10 .f32) (w3 : Vec Ideal S1x10 .f32) (p : Fin 32768),
      Gen.k0_pay1 (F := Ideal) x c1 c2 c3 w1 w2 w3 (ix2 (0 : Fin 1) p)
        = mlp (fun j k => w1 (ix2 j k)) (fun j => c1 (ix2 j (0 : Fin 1))) (fun i j => w2 (ix2 i j)) (fun i => c2 (ix2 i (0 : Fin 1)))
            (fun i => w3 (ix2 (0 : Fin 1) i)) (c3 (ix2 (0 : Fin 1) (0 : Fin 1))) (fun k => x (ix2 k p)))
    (hbias : ∀ (m : (ℓ : Loc nD τ sig) → Buf (Elt Ideal) ℓ) (c : Dev nD) (j : Fin 10) (q : Fin 3),
      (Gen.V m c main_v9 : S10x3.Idx → EReal) (ix2 j q)
        = bias3 (cB (m ((c.tc : Thread nD τ).loc main_arg2))) (cB (m ((c.tc : Thread nD τ).loc main_arg4))) (cB3 (m ((c.tc : Thread nD τ).loc main_arg6))) j q)
    (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v12)
        = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_value m ρ hpay hbias

end Cert.ReferenceIdeal.RefValue

end
-- ==== Proof.RefPayload.lean ====
/-
  One entry of the block the plain program's body stores, at the extended reals.

  The body multiplies the first layer (10 × 2) by the 2 × 32768 block of samples, adds the first bias column,
  clamps at 0; multiplies the second layer (10 × 10) by that, adds the second bias column, clamps at 0; and
  multiplies the 1 × 10 output row by that and adds the last bias. Entry (0, p) of what it stores is therefore
  the network on sample p.
-/
import proofs.«159392_g2000409670772848_pallaspilot1_20_20_alg».proof.Proof.Gen.ReferenceIdeal.Skeleton
import proofs.«159392_g2000409670772848_pallaspilot1_20_20_alg».proof.Proof.MlpSpec
import proofs.«159392_g2000409670772848_pallaspilot1_20_20_alg».proof.Proof.LibColumnLayout

noncomputable section

open scoped BigOperators

namespace Cert.ReferenceIdeal.Payload

open Idealize.ShloMosaic Idealize.ShloMosaic.ValueIdx Cert.ReferenceIdeal Cert.ReferenceIdeal.Gen Cert.MlpSpec
open Cert.LibColumnLayout

/-! ## The three layers as array operations -/

/-- First layer over the whole block: W·X + c (the column c along every sample), clamped at 0. -/
def R1 (w : FVec Ideal S10x2 .f32) (c : FVec Ideal S10x1 .f32) (x : FVec Ideal S2x32768 .f32) :
    FVec Ideal S10x32768 .f32 :=
  maximumf
    (addf (matmul dot_S10x2_S2x32768_S10x32768_1_0_0_1_n_n none w x (constant S10x32768 .f32 0x00000000#32))
      (broadcastTo S10x32768 c broadcasts_S10x1_S10x32768))
    (broadcast S10x32768 (Scalar.ofBits .f32 0x00000000#32))

/-- Second layer over the whole block: W·H + c, clamped at 0. -/
def R2 (w : FVec Ideal S10x10 .f32) (c : FVec Ideal S10x1 .f32) (a : FVec Ideal S10x32768 .f32) :
    FVec Ideal S10x32768 .f32 :=
  maximumf
    (addf (matmul dot_S10x10_S10x32768_S10x32768_1_0_0_1_n_n none w a (constant S10x32768 .f32 0x00000000#32))
      (broadcastTo S10x32768 c broadcasts_S10x1_S10x32768))
    (broadcast S10x32768 (Scalar.ofBits .f32 0x00000000#32))

/-- Output row over the whole block: w·H + c, the one cell c along every sample. -/
def R3 (w : FVec Ideal S1x10 .f32) (c : FVec Ideal S1x1 .f32) (a : FVec Ideal S10x32768 .f32) :
    FVec Ideal S1x32768 .f32 :=
  addf (matmul dot_S1x10_S10x32768_S1x32768_1_0_0_1_n_n none w a (constant S1x32768 .f32 0x00000000#32))
    (broadcastTo S1x32768 c broadcasts_S1x1_S1x32768)

/-- The stored value is the three layers composed. -/
theorem k0_pay1_eq (v0 : Vec Ideal S2x32768 .f32) (v1 v3 : Vec Ideal S10x1 .f32) (v5 : Vec Ideal S1x1 .f32)
    (v7 : Vec Ideal S10x2 .f32) (v13 : Vec Ideal S10x10 .f32) (v19 : Vec Ideal S1x10 .f32) :
    k0_pay1 (F := Ideal) v0 v1 v3 v5 v7 v13 v19
      = R3 v19 (shapeCast S1x1 v5 shapeCasts_S1x1_S1x1)
          (R2 v13 (shapeCast S10x1 v3 shapeCasts_S10x1_S10x1)
            (R1 v7 (shapeCast S10x1 v1 shapeCasts_S10x1_S10x1) v0)) := rfl

/-! ## Each layer at one entry -/

/-- Clamping against the splat of the zero word is `max · 0`. -/
theorem relu_apply {S : Shape} (a : FVec Ideal S .f32) (i : S.Idx) :
    maximumf a (broadcast S (Scalar.ofBits (F := Ideal) .f32 0x00000000#32)) i = max (a i) 0 := by
  show max (a i) (Ideal.ofBits .f32 0x00000000#32) = _
  rw [Ideal.ofBits_zero_f32]

/-- Entry (j, b) of the first layer: unit j on sample b. -/
theorem R1_apply (w : FVec Ideal S10x2 .f32) (c : FVec Ideal S10x1 .f32) (x : FVec Ideal S2x32768 .f32)
    (j : Fin 10) (b : Fin 32768) :
    R1 w c x (ix2 j b) = max ((∑ k : Fin 2, w (ix2 j k) * x (ix2 k b)) + c (ix2 j (0 : Fin 1))) 0 := by
  refine (relu_apply _ _).trans ?_
  refine congrArg (fun t => max t 0) ?_
  refine (addf_apply _ _ _).trans ?_
  refine congrArg₂ (· + ·) ?_ ?_
  · exact matmul_plain_zero_apply none w x j b
  · exact broadcastTo_column_apply c _ j b

/-- Entry (i, b) of the second layer: unit i on the first layer's column b. -/
theorem R2_apply (w : FVec Ideal S10x10 .f32) (c : FVec Ideal S10x1 .f32) (a : FVec Ideal S10x32768 .f32)
    (i : Fin 10) (b : Fin 32768) :
    R2 w c a (ix2 i b) = max ((∑ j : Fin 10, w (ix2 i j) * a (ix2 j b)) + c (ix2 i (0 : Fin 1))) 0 := by
  refine (relu_apply _ _).trans ?_
  refine congrArg (fun t => max t 0) ?_
  refine (addf_apply _ _ _).trans ?_
  refine congrArg₂ (· + ·) ?_ ?_
  · exact matmul_plain_zero_apply none w a i b
  · exact broadcastTo_column_apply c _ i b

/-- Entry (0, b) of the output row. -/
theorem R3_apply (w : FVec Ideal S1x10 .f32) (c : FVec Ideal S1x1 .f32) (a : FVec Ideal S10x32768 .f32)
    (b : Fin 32768) :
    R3 w c a (ix2 (0 : Fin 1) b)
      = (∑ i : Fin 10, w (ix2 (0 : Fin 1) i) * a (ix2 i b)) + c (ix2 (0 : Fin 1) (0 : Fin 1)) := by
  refine (addf_apply _ _ _).trans ?_
  refine congrArg₂ (· + ·) ?_ ?_
  · exact matmul_plain_zero_apply none w a 0 b
  · exact broadcastTo_column_apply c _ 0 b

/-! ## The stored entry -/

/-- Entry (0, p) of the stored 1 × 32768 block is the network's value on sample p of the input block. -/
theorem pay_apply (x : Vec Ideal S2x32768 .f32) (c1 c2 : Vec Ideal S10x1 .f32) (c3 : Vec Ideal S1x1 .f32)
    (w1 : Vec Ideal S10x2 .f32) (w2 : Vec Ideal S10x10 .f32) (w3 : Vec Ideal S1x10 .f32) (p : Fin 32768) :
    k0_pay1 (F := Ideal) x c1 c2 c3 w1 w2 w3 (ix2 (0 : Fin 1) p)
      = mlp (fun j k => w1 (ix2 j k)) (fun j => c1 (ix2 j (0 : Fin 1))) (fun i j => w2 (ix2 i j))
          (fun i => c2 (ix2 i (0 : Fin 1))) (fun i => w3 (ix2 (0 : Fin 1) i)) (c3 (ix2 (0 : Fin 1) (0 : Fin 1)))
          (fun k => x (ix2 k p)) := by
  rw [k0_pay1_eq, shapeCast_self c1, shapeCast_self c2, shapeCast_self c3]
  -- the output unit
  rw [R3_apply]
  unfold mlp out
  refine congrArg₂ (· + ·) (Finset.sum_congr rfl fun i _ => congrArg₂ (· * ·) rfl ?_) rfl
  -- the second layer
  rw [R2_apply]
  unfold h2
  refine congrArg (fun t => max t 0)
    (congrArg₂ (· + ·) (Finset.sum_congr rfl fun j _ => congrArg₂ (· * ·) rfl ?_) rfl)
  -- the first layer
  rw [R1_apply]
  rfl

end Cert.ReferenceIdeal.Payload

end
-- ==== Proof.RefBias.lean ====
/-
  What the reference program's 10 × 3 bias array holds when its region starts.

  The array is built by three scatters into a 10 × 3 array of zeros: the first bias vector into column 0, the
  second into column 1, the last bias (one number) into cell (0, 2). Each scatter's body returns the update, so
  each is a set: the result holds the update at the cell an update index lands at and the operand elsewhere.
  Reading the three in turn at cell (j, q) gives `bias3`: column 0 the first bias, column 1 the second, cell
  (0, 2) the last, zero in the rest of column 2.
-/
import proofs.«159392_g2000409670772848_pallaspilot1_20_20_alg».proof.Proof.Gen.ReferenceIdeal.Frame
import proofs.«159392_g2000409670772848_pallaspilot1_20_20_alg».proof.Proof.MlpSpec
import proofs.«159392_g2000409670772848_pallaspilot1_20_20_alg».proof.Proof.LibScatterSet
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Bias

open Idealize.ShloMosaic Idealize.ShloMosaic.ValueIdx Idealize.ShloMosaic.TcCoe Idealize.SL.Sem
open Cert.ReferenceIdeal Cert.ReferenceIdeal.Gen Cert.MlpSpec Cert.LibScatterSet

/-! ## The index vectors and the zeros -/

/-- A scalar integer constant broadcast to one component is that constant. -/
theorem idxvec_const (b : BitVec 32) : (broadcastInDim S1 ![] bcast_S_S1 (constantI S_ 32 b) : IVec S1 32) = fun _ => b := rfl

/-- The array of zeros holds 0 in every cell. -/
theorem zeros_apply (i : S10x3.Idx) :
    (broadcastInDim S10x3 ![] bcast_S_S10x3 (constant (F := Ideal) S_ .f32 0x00000000#32) : S10x3.Idx → EReal) i = 0 := by
  show Ideal.ofBits .f32 0x00000000#32 = 0
  exact Ideal.ofBits_zero_f32

/-- The two-component index vector `[a, b]`: component 0 is `a`. -/
theorem pair_idx_0 (x₁ x₂ : IVec S1 32) :
    (concatenate S2 0 [⟨S1, x₁⟩, ⟨S1, x₂⟩] concatenates_S1_S1_S2_d0 : IVec S2 32) (ix1 (0 : Fin 2)) = x₁ (ix1 (0 : Fin 1)) :=
  concatenate_pair_apply_left (t := S2) (s₁ := S1) (s₂ := S1) 0 x₁ x₂ concatenates_S1_S1_S2_d0 (ix1 (0 : Fin 2)) rfl
    (ix1 (0 : Fin 1)) (fun b => match b with | ⟨0, _⟩ => rfl)

/-- The two-component index vector `[a, b]`: component 1 is `b`. -/
theorem pair_idx_1 (x₁ x₂ : IVec S1 32) :
    (concatenate S2 0 [⟨S1, x₁⟩, ⟨S1, x₂⟩] concatenates_S1_S1_S2_d0 : IVec S2 32) (ix1 (1 : Fin 2)) = x₂ (ix1 (0 : Fin 1)) :=
  concatenate_pair_apply_right (t := S2) (s₁ := S1) (s₂ := S1) 0 x₁ x₂ concatenates_S1_S1_S2_d0 (ix1 (1 : Fin 2)) rfl rfl
    (ix1 (0 : Fin 1)) (fun b hb => match b, hb with | ⟨0, _⟩, hb => absurd rfl hb) rfl

/-- The one-element array has one index. -/
theorem idx1_unit (k k' : S1.Idx) : k = k' := by
  funext a
  match a with
  | ⟨0, ha⟩ =>
    have h1 : (k ⟨0, ha⟩).val < 1 := (k ⟨0, ha⟩).isLt
    have h2 : (k' ⟨0, ha⟩).val < 1 := (k' ⟨0, ha⟩).isLt
    exact Fin.ext (by omega)

/-! ## Where the update indices land -/

/-- The column scatter: on axis 0 the start is 0 and the window coordinate is the update's row; on axis 1 the
    start is the index vector's one component and the window coordinate is 0. -/
theorem col_land (col : BitVec 32) (q : Fin 3) (hq : col.toInt = (q.val : Int)) (n : S10.Idx) :
    scatter_S10x3_S1_S10_0_1_1_0.resultIdx? n (fun _ => col : IVec S1 32) = some (ix2 (n 0) q) := by
  have hs0 : scatter_S10x3_S1_S10_0_1_1_0.start n (fun _ => col : IVec S1 32) (0 : Fin 2) = 0 := by
    unfold ScatterDims.start; exact dif_neg (by decide)
  have hs1 : scatter_S10x3_S1_S10_0_1_1_0.start n (fun _ => col : IVec S1 32) (1 : Fin 2) = col.toInt := by
    unfold ScatterDims.start; exact dif_pos (by decide)
  have hw0 : scatter_S10x3_S1_S10_0_1_1_0.window n (0 : Fin 2) = (n 0).val := by
    unfold ScatterDims.window; rw [dif_pos (by decide)]; rfl
  have hw1 : scatter_S10x3_S1_S10_0_1_1_0.window n (1 : Fin 2) = 0 := by
    unfold ScatterDims.window; exact dif_neg (by decide)
  have hn : (n 0).val < 10 := (n 0).isLt
  have hqlt : q.val < 3 := q.isLt
  have H : ∀ a : Fin S10x3.rank, 0 ≤ scatter_S10x3_S1_S10_0_1_1_0.start n (fun _ => col : IVec S1 32) a + scatter_S10x3_S1_S10_0_1_1_0.window n a
      ∧ scatter_S10x3_S1_S10_0_1_1_0.start n (fun _ => col : IVec S1 32) a + scatter_S10x3_S1_S10_0_1_1_0.window n a < S10x3.size a := by
    refine Fin.forall_fin_two.2 ⟨?_, ?_⟩
    · rw [hs0, hw0]; show 0 ≤ (0 : Int) + ((n 0).val : Int) ∧ (0 : Int) + ((n 0).val : Int) < ((10 : Nat) : Int); omega
    · rw [hs1, hw1, hq]; show 0 ≤ (q.val : Int) + ((0 : Nat) : Int) ∧ (q.val : Int) + ((0 : Nat) : Int) < ((3 : Nat) : Int); omega
  unfold ScatterDims.resultIdx?
  rw [dif_pos H]
  refine congrArg some (funext fun a => Fin.ext ?_)
  revert a
  refine Fin.forall_fin_two.2 ⟨?_, ?_⟩
  · show (scatter_S10x3_S1_S10_0_1_1_0.start n (fun _ => col : IVec S1 32) (0 : Fin 2) + scatter_S10x3_S1_S10_0_1_1_0.window n (0 : Fin 2)).toNat = (n 0).val
    rw [hs0, hw0]; omega
  · show (scatter_S10x3_S1_S10_0_1_1_0.start n (fun _ => col : IVec S1 32) (1 : Fin 2) + scatter_S10x3_S1_S10_0_1_1_0.window n (1 : Fin 2)).toNat = q.val
    rw [hs1, hw1, hq]; omega

/-- The single-cell scatter: both operand axes are scattered axes, so the start on axis `a` is component `a` of
    the index vector and every window coordinate is 0. -/
theorem cell_land (idx : IVec S2 32) (h0 : idx (ix1 (0 : Fin 2)) = 0#32) (h1 : idx (ix1 (1 : Fin 2)) = 2#32) (n : S_.Idx) :
    scatter_S10x3_S2_S__n_01_01_0.resultIdx? n idx = some (ix2 (0 : Fin 10) (2 : Fin 3)) := by
  have si : ∀ (c : Fin scatter_S10x3_S2_S__n_01_01_0.scatterDimsToOperandDims.length) (k : Fin 2), c.val = k.val →
      scatter_S10x3_S2_S__n_01_01_0.siIdx n c = ix1 k := by
    intro c k hck
    funext b
    match b with
    | ⟨0, hb⟩ =>
      unfold ScatterDims.siIdx
      exact (dif_pos (rfl : ((⟨0, hb⟩ : Fin S2.rank)).val = scatter_S10x3_S2_S__n_01_01_0.indexVectorDim)).trans (Fin.ext hck)
  have hs0 : scatter_S10x3_S2_S__n_01_01_0.start n idx (0 : Fin 2) = 0 := by
    unfold ScatterDims.start
    rw [dif_pos (by decide)]
    refine (congrArg (fun k => (idx k).toInt) (si _ (0 : Fin 2) rfl)).trans ?_
    show (idx (ix1 (0 : Fin 2))).toInt = 0
    rw [h0]; rfl
  have hs1 : scatter_S10x3_S2_S__n_01_01_0.start n idx (1 : Fin 2) = 2 := by
    unfold ScatterDims.start
    rw [dif_pos (by decide)]
    refine (congrArg (fun k => (idx k).toInt) (si _ (1 : Fin 2) rfl)).trans ?_
    show (idx (ix1 (1 : Fin 2))).toInt = 2
    rw [h1]; rfl
  have hw0 : scatter_S10x3_S2_S__n_01_01_0.window n (0 : Fin 2) = 0 := by
    unfold ScatterDims.window; exact dif_neg (by decide)
  have hw1 : scatter_S10x3_S2_S__n_01_01_0.window n (1 : Fin 2) = 0 := by
    unfold ScatterDims.window; exact dif_neg (by decide)
  have H : ∀ a : Fin S10x3.rank, 0 ≤ scatter_S10x3_S2_S__n_01_01_0.start n idx a + scatter_S10x3_S2_S__n_01_01_0.window n a
      ∧ scatter_S10x3_S2_S__n_01_01_0.start n idx a + scatter_S10x3_S2_S__n_01_01_0.window n a < S10x3.size a := by
    refine Fin.forall_fin_two.2 ⟨?_, ?_⟩
    · rw [hs0, hw0]; show 0 ≤ (0 : Int) + ((0 : Nat) : Int) ∧ (0 : Int) + ((0 : Nat) : Int) < ((10 : Nat) : Int); omega
    · rw [hs1, hw1]; show 0 ≤ (2 : Int) + ((0 : Nat) : Int) ∧ (2 : Int) + ((0 : Nat) : Int) < ((3 : Nat) : Int); omega
  unfold ScatterDims.resultIdx?
  rw [dif_pos H]
  refine congrArg some (funext fun a => Fin.ext ?_)
  revert a
  refine Fin.forall_fin_two.2 ⟨?_, ?_⟩
  · show (scatter_S10x3_S2_S__n_01_01_0.start n idx (0 : Fin 2) + scatter_S10x3_S2_S__n_01_01_0.window n (0 : Fin 2)).toNat = 0
    rw [hs0, hw0]; rfl
  · show (scatter_S10x3_S2_S__n_01_01_0.start n idx (1 : Fin 2) + scatter_S10x3_S2_S__n_01_01_0.window n (1 : Fin 2)).toNat = 2
    rw [hs1, hw1]; rfl

/-! ## Each scatter read at a cell -/

/-- Distinct rows land at distinct cells of a column. -/
theorem col_inj (q0 : Fin 3) : Function.Injective (fun n : S10.Idx => (ix2 (n 0) q0 : S10x3.Idx)) := by
  intro a b e
  have h0 : a 0 = b 0 := congrFun e (0 : Fin 2)
  rw [eq_ix1 a, eq_ix1 b, h0]

/-- A vector scattered into column `q0`: that column holds the vector, the other columns are the operand's. -/
theorem col_scatter_apply (col : BitVec 32) (q0 : Fin 3) (hq : col.toInt = (q0.val : Int)) (x : S10x3.Idx → EReal)
    (B : S10.Idx → EReal) (j : Fin 10) (q : Fin 3) :
    Host.scatter scatter_S10x3_S1_S10_0_1_1_0 (fun _ b => b) x (broadcastInDim S1 ![] bcast_S_S1 (constantI S_ 32 col) : IVec S1 32) B (ix2 j q)
      = if q.val = q0.val then B (ix1 j) else x (ix2 j q) := by
  rw [idxvec_const]
  by_cases h : q.val = q0.val
  · rw [if_pos h]
    have hqq : q = q0 := Fin.ext h
    subst hqq
    exact scatter_set_hit scatter_S10x3_S1_S10_0_1_1_0 x (fun _ => col : IVec S1 32) B (fun n => ix2 (n 0) q)
      (col_land col q hq) (col_inj q) (ix1 j)
  · rw [if_neg h]
    exact scatter_set_miss scatter_S10x3_S1_S10_0_1_1_0 x (fun _ => col : IVec S1 32) B (fun n => ix2 (n 0) q0)
      (col_land col q0 hq) (ix2 j q) (fun n e => h (congrArg Fin.val (congrFun e (1 : Fin 2))).symm)

/-- One number scattered at cell (0, 2): that cell holds it, every other cell is the operand's. -/
theorem cell_scatter_apply (x : S10x3.Idx → EReal) (idx : IVec S2 32) (h0 : idx (ix1 (0 : Fin 2)) = 0#32)
    (h1 : idx (ix1 (1 : Fin 2)) = 2#32) (upd : S_.Idx → EReal) (j : Fin 10) (q : Fin 3) :
    Host.scatter scatter_S10x3_S2_S__n_01_01_0 (fun _ b => b) x idx upd (ix2 j q)
      = if j.val = 0 ∧ q.val = 2 then upd ix0 else x (ix2 j q) := by
  by_cases h : j.val = 0 ∧ q.val = 2
  · rw [if_pos h]
    have hj : j = 0 := Fin.ext h.1
    have hq : q = 2 := Fin.ext h.2
    subst hj hq
    exact scatter_set_hit scatter_S10x3_S2_S__n_01_01_0 x idx upd (fun _ => ix2 (0 : Fin 10) (2 : Fin 3))
      (cell_land idx h0 h1) (fun a b _ => (eq_ix0 a).trans (eq_ix0 b).symm) ix0
  · rw [if_neg h]
    exact scatter_set_miss scatter_S10x3_S2_S__n_01_01_0 x idx upd (fun _ => ix2 (0 : Fin 10) (2 : Fin 3))
      (cell_land idx h0 h1) (ix2 j q)
      (fun n e => h ⟨(congrArg Fin.val (congrFun e (0 : Fin 2))).symm, (congrArg Fin.val (congrFun e (1 : Fin 2))).symm⟩)

/-! ## The bias array -/

/-- The bias array as the three scatters over the zeros, composed. -/
theorem V9_eq (m : (ℓ : Loc nD τ sig) → Buf (Elt Ideal) ℓ) (c : Dev nD) :
    (Gen.V m c main_v9 : S10x3.Idx → EReal)
      = Host.scatter scatter_S10x3_S2_S__n_01_01_0 (fun _ b => b)
          (Host.scatter scatter_S10x3_S1_S10_0_1_1_0 (fun _ b => b)
            (Host.scatter scatter_S10x3_S1_S10_0_1_1_0 (fun _ b => b)
              (broadcastInDim S10x3 ![] bcast_S_S10x3 (constant (F := Ideal) S_ .f32 0x00000000#32))
              (broadcastInDim S1 ![] bcast_S_S1 (constantI S_ 32 0#32) : IVec S1 32)
              (m ((c : Thread nD τ).loc main_arg2)))
            (broadcastInDim S1 ![] bcast_S_S1 (constantI S_ 32 1#32) : IVec S1 32)
            (m ((c : Thread nD τ).loc main_arg4)))
          (concatenate S2 0 [⟨S1, (broadcastInDim S1 ![] bcast_S_S1 (constantI S_ 32 0#32) : IVec S1 32)⟩,
            ⟨S1, (broadcastInDim S1 ![] bcast_S_S1 (constantI S_ 32 2#32) : IVec S1 32)⟩] concatenates_S1_S1_S2_d0 : IVec S2 32)
          (shapeCast S_ (m ((c : Thread nD τ).loc main_arg6) : S1.Idx → EReal) shapeCasts_S1_S_) := by
  show StableHlo.after (List.flatten [hostOps0]) (fun b => m (c, b)) (Proc.devRef .tc main_v9) = _
  simp only [Gen.hostOps0, List.flatten_cons, List.flatten_nil, List.append_nil]
  after_results
  rfl

/-- Cell (j, q) of the bias array: the first bias in column 0, the second in column 1, the last in cell (0, 2),
    zero in the rest of column 2. -/
theorem bias_apply (m : (ℓ : Loc nD τ sig) → Buf (Elt Ideal) ℓ) (c : Dev nD) (j : Fin 10) (q : Fin 3) :
    (Gen.V m c main_v9 : S10x3.Idx → EReal) (ix2 j q)
      = bias3 (cB (m ((c.tc : Thread nD τ).loc main_arg2))) (cB (m ((c.tc : Thread nD τ).loc main_arg4)))
          (cB3 (m ((c.tc : Thread nD τ).loc main_arg6))) j q := by
  refine (congrFun (V9_eq m c) (ix2 j q)).trans ?_
  rw [cell_scatter_apply _ _ ((pair_idx_0 _ _).trans rfl) ((pair_idx_1 _ _).trans rfl),
    col_scatter_apply 1#32 1 rfl, col_scatter_apply 0#32 0 rfl, zeros_apply]
  unfold bias3 cB cB3
  have hq3 : q.val < 3 := q.isLt
  by_cases hq0 : q.val = 0
  · rw [if_neg (by omega : ¬(j.val = 0 ∧ q.val = 2)), if_neg (by omega : ¬q.val = (1 : Fin 3).val),
      if_pos (by exact hq0 : q.val = (0 : Fin 3).val), if_pos hq0]
  · by_cases hq1 : q.val = 1
    · rw [if_neg (by omega : ¬(j.val = 0 ∧ q.val = 2)), if_pos (by exact hq1 : q.val = (1 : Fin 3).val), if_neg hq0, if_pos hq1]
    · have hq2 : q.val = 2 := by omega
      rw [if_neg hq0, if_neg hq1]
      by_cases hj : j.val = 0
      · rw [if_pos ⟨hj, hq2⟩, if_pos hj]
        exact shapeCast_apply _ shapeCasts_S1_S_ ix0 (ix1 (0 : Fin 1)) rfl
      · rw [if_neg (fun h => hj h.1), if_neg (by exact hq1 : ¬q.val = (1 : Fin 3).val), if_neg (by exact hq0 : ¬q.val = (0 : Fin 3).val),
          if_neg hj]

end Cert.ReferenceIdeal.Bias
end
-- ==== Proof.lean ====
/-
  Two programs for one small network, equal over the extended reals.

  Both programs evaluate a 2 → 10 → 10 → 1 network with ReLU activations on 4194304 samples given as the columns of a
  2 × 4194304 array, and return the 4194304 × 1 column of values:
      y = w3 · max (W2 · max (W1 · x + b1) 0 + b2) 0 + b3.
  The reference launches a kernel over 128 column blocks with the three weight arrays and a 10 × 3 array holding the three
  biases (built by three scatters into zeros); its body is the formula as written, three products into zero accumulators
  each followed by a broadcast bias add. The kernel under test first packs all six parameter arrays into ONE 40 × 16 array
  (pads, concatenations and one scatter that plants a 1), then launches a kernel over 8 column blocks whose body has three
  products and only ONE bias add: the first layer is padded to sixteen units, unit 10 of which has zero weights and bias 1
  and so is the constant 1 after the ReLU; the second layer's bias sits in column 10 of its weights (it multiplies that
  constant), and one of its rows copies the constant forward; the last layer's bias sits in column 10 likewise. It stores
  each block's row of values re-laid as 4096 × 128, so that the final reshape to 4194304 × 1 is the identity on row-major
  positions.

  Over the extended reals 0 · x = 0 and x · 1 = x hold for EVERY x, and addition is commutative and associative, so each
  sixteen-term sum of the packed form is the corresponding ten-term sum plus its bias (Proof/MlpAlgebra.lean,
  `mlpAug_packed`): no finiteness of the inputs is used. The rest of the certificate is bookkeeping that both result arrays
  are that one function `Cert.MlpSpec.G` of the argument arrays:
    • Proof/MlpSpec.lean states the network, the packed form, and what the packed array and the bias array hold;
    • Proof/KernelPacked.lean and Proof/RefBias.lean read the two host-built arrays cell by cell (Proof/LibScatterSet.lean: a
      scatter that overwrites, read at an index);
    • Proof/KernelPayload.lean and Proof/RefPayload.lean read one entry of each body's stored block (Proof/LibColumnLayout.lean:
      the product into a zero accumulator, the column broadcast, the first-row slice and the row-to-tiles cast at an index);
    • Proof/KernelIdealFrame.lean (and its copy at the word-level instance, Proof/KernelFrame.lean) is the frame of the packed
      program: the host lines, the launch with its proof data, the body's symbolic run;
    • Proof/KernelValue.lean and Proof/RefValue.lean (over Proof/RefValueBlocks.lean) pass from blocks to whole arrays — every
      point writes the restriction of one whole-array function and the blocks tile the output — and through the reshapes after
      the launch.
  The idealization rewrote nothing, so `preserves` is `True`.
-/
import proofs.«159392_g2000409670772848_pallaspilot1_20_20_alg».proof.Defs
import proofs.«159392_g2000409670772848_pallaspilot1_20_20_alg».proof.Proof.Gen.Kernel
import proofs.«159392_g2000409670772848_pallaspilot1_20_20_alg».proof.Proof.Gen.KernelIdeal
import proofs.«159392_g2000409670772848_pallaspilot1_20_20_alg».proof.Proof.Gen.ReferenceIdeal
import proofs.«159392_g2000409670772848_pallaspilot1_20_20_alg».proof.Proof.Gen.ReferenceIdeal.Frame
import proofs.«159392_g2000409670772848_pallaspilot1_20_20_alg».proof.Proof.Gen.Pre_finite_inputs
import proofs.«159392_g2000409670772848_pallaspilot1_20_20_alg».proof.Proof.KernelFrame
import proofs.«159392_g2000409670772848_pallaspilot1_20_20_alg».proof.Proof.KernelIdealFrame
import proofs.«159392_g2000409670772848_pallaspilot1_20_20_alg».proof.Proof.KernelValue
import proofs.«159392_g2000409670772848_pallaspilot1_20_20_alg».proof.Proof.KernelPacked
import proofs.«159392_g2000409670772848_pallaspilot1_20_20_alg».proof.Proof.RefValue
import proofs.«159392_g2000409670772848_pallaspilot1_20_20_alg».proof.Proof.RefPayload
import proofs.«159392_g2000409670772848_pallaspilot1_20_20_alg».proof.Proof.RefBias

noncomputable section

namespace Cert.Proof

open Idealize.ShloMosaic Idealize.ShloMosaic.TcCoe Idealize.SL.Sem

/-- The packed program at the word-level instance runs and leaves its arguments unchanged. -/
theorem frame_kernel : Cert.frame_Kernel := fun m ρ _ => Cert.Kernel.Frm.frame m ρ

/-- The same at the exact-real instance. -/
theorem frame_kernelIdeal : Cert.frame_KernelIdeal := fun m ρ _ => Cert.KernelIdeal.Frm.frame m ρ

/-- The reference runs and leaves its arguments unchanged. -/
theorem frame_referenceIdeal : Cert.frame_ReferenceIdeal := fun m ρ _ => Cert.ReferenceIdeal.Gen.frame m ρ

/-- The idealization rewrote no operation. -/
theorem preserves : Cert.preserves_Kernel_KernelIdeal := trivial

/-- From memories agreeing on the arguments both programs end with the result array at `G` of the arguments: the packed
    program by its value run over what the packed array holds, the reference by its value run over what the bias array
    holds and its body's entry. -/
theorem algebraic : Cert.algebraic_KernelIdeal_ReferenceIdeal := by
  intro m ρ m' ρ' _ hagree
  refine ⟨fun c => Cert.MlpSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KVal.run m ρ (fun c r k => Cert.KernelIdeal.Packed.packed_apply m c r k), ?_⟩
  refine (θ_run Cert.ReferenceIdeal.defs _ _).mono (fun r h c => ⟨(h c).1.trans ?_, (h c).2⟩)
    (Cert.ReferenceIdeal.RefValue.run_of Cert.ReferenceIdeal.Payload.pay_apply Cert.ReferenceIdeal.Bias.bias_apply m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
